-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v58)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v58) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v82) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S800000 : Shape := ⟨1, ![800000]⟩
abbrev S128x128 : Shape := ⟨2, ![128, 128]⟩
abbrev S128 : Shape := ⟨1, ![128]⟩
abbrev S32x128 : Shape := ⟨2, ![32, 128]⟩
abbrev S32 : Shape := ⟨1, ![32]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000 : S_.BroadcastsInDim S800000 (![] : Fin 0 → Fin S800000.rank)
  reducesTo_S800000_S_d0 : S800000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S32x128 : S_.BroadcastsInDim S32x128 (![] : Fin 0 → Fin S32x128.rank)
  reducesTo_S32x128_S_d0_1 : S32x128.ReducesTo [0, 1] S_
  bcast_S_S32 : S_.BroadcastsInDim S32 (![] : Fin 0 → Fin S32.rank)
  reducesTo_S32_S_d0 : S32.ReducesTo [0] S_

variable [Facts]

def fn_part3 {F : FTy → Type} [FloatOps F] (main_arg12 : FVec F S32x128 .f32) (main_arg13 : FVec F S32 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S32x128 .f32 := Host.absf main_arg12
  let main_cst_20 : FVec F S_ .f32 := constant S_ .f32 0x7F800000#32
  let main_v55 : FVec F S32x128 .f32 := broadcastInDim S32x128 ![] bcast_S_S32x128 main_cst_20
  let main_v56 : IVec S32x128 1 := cmpf .olt main_v54 main_v55
  let main_c_21 : IVec S_ 1 := constantI S_ 1 1#1
  let main_v57 : IVec S_ 1 := (fun x v => Host.reduce IntOp.andi x v reducesTo_S32x128_S_d0_1 h_S_) main_v56 main_c_21
  let main_v58 : IVec S_ 1 := andi main_v53 main_v57
  let main_v59 : FVec F S32 .f32 := Host.absf main_arg13
  let main_cst_22 : FVec F S_ .f32 := constant S_ .f32 0x7F800000#32
  let main_v60 : FVec F S32 .f32 := broadcastInDim S32 ![] bcast_S_S32 main_cst_22
  let main_v61 : IVec S32 1 := cmpf .olt main_v59 main_v60
  let main_c_23 : IVec S_ 1 := constantI S_ 1 1#1
  let main_v62 : IVec S_ 1 := (fun x v => Host.reduce IntOp.andi x v reducesTo_S32_S_d0 h_S_) main_v61 main_c_23
  let main_v63 : IVec S_ 1 := andi main_v58 main_v62
  main_v63

def fn_part2 {F : FTy → Type} [FloatOps F] (main_arg8 : FVec F S128 .f32) (main_arg9 : FVec F S128x128 .f32) (main_arg10 : FVec F S128x128 .f32) (main_arg11 : FVec F S128 .f32) (main_arg12 : FVec F S32x128 .f32) (main_arg13 : FVec F S32 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg9
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128x128 .f32 := Host.absf main_arg10
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_arg12 main_arg13 main_v48 main_v49 main_v50

def fn_part1 {F : FTy → Type} [FloatOps F] (main_arg5 : FVec F S128 .f32) (main_arg6 : FVec F S128x128 .f32) (main_arg7 : FVec F S128x128 .f32) (main_arg8 : FVec F S128 .f32) (main_arg9 : FVec F S128x128 .f32) (main_arg10 : FVec F S128x128 .f32) (main_arg11 : FVec F S128 .f32) (main_arg12 : FVec F S32x128 .f32) (main_arg13 : FVec F S32 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_arg9 main_arg10 main_arg11 main_arg12 main_arg13 main_v33

def fn {F : FTy → Type} [FloatOps F] (main_arg0 : FVec F S50000x128 .f32) (main_arg1 : IVec S2x800000 32) (main_arg2 : FVec F S800000 .f32) (main_arg3 : FVec F S128x128 .f32) (main_arg4 : FVec F S128x128 .f32) (main_arg5 : FVec F S128 .f32) (main_arg6 : FVec F S128x128 .f32) (main_arg7 : FVec F S128x128 .f32) (main_arg8 : FVec F S128 .f32) (main_arg9 : FVec F S128x128 .f32) (main_arg10 : FVec F S128x128 .f32) (main_arg11 : FVec F S128 .f32) (main_arg12 : FVec F S32x128 .f32) (main_arg13 : FVec F S32 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000 .f32 := Host.absf main_arg2
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_arg10 main_arg11 main_arg12 main_arg13 main_v13 main_v16
-- ==== Kernel.lean ====
abbrev S50000x128 : Shape := ⟨2, ![50000, 128]⟩
abbrev S2x800000 : Shape := ⟨2, ![2, 800000]⟩
abbrev S800000 : Shape := ⟨1, ![800000]⟩
abbrev S128x128 : Shape := ⟨2, ![128, 128]⟩
abbrev S128 : Shape := ⟨1, ![128]⟩
abbrev S32x128 : Shape := ⟨2, ![32, 128]⟩
abbrev S32 : Shape := ⟨1, ![32]⟩
abbrev S1x800000 : Shape := ⟨2, ![1, 800000]⟩
abbrev S800000x1 : Shape := ⟨2, ![800000, 1]⟩
abbrev S5000x128 : Shape := ⟨2, ![5000, 128]⟩
abbrev S_ : Shape := ⟨0, ![]⟩
abbrev S800000x128 : Shape := ⟨2, ![800000, 128]⟩
abbrev S1x128 : Shape := ⟨2, ![1, 128]⟩
abbrev S128x32 : Shape := ⟨2, ![128, 32]⟩
abbrev S1x32 : Shape := ⟨2, ![1, 32]⟩
abbrev S50000x32 : Shape := ⟨2, ![50000, 32]⟩
abbrev S5000x32 : Shape := ⟨2, ![5000, 32]⟩

abbrev nBuf : Space → Nat
  | .hbm => 82
  | .vmem => 45
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S800000, .f32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128x128, .f32⟩
  | .hbm, ⟨11, _⟩ => ⟨S128, .f32⟩
  | .hbm, ⟨12, _⟩ => ⟨S32x128, .f32⟩
  | .hbm, ⟨13, _⟩ => ⟨S32, .f32⟩
  | .hbm, ⟨14, _⟩ => ⟨S1x800000, .i32⟩
  | .hbm, ⟨15, _⟩ => ⟨S800000, .i32⟩
  | .hbm, ⟨16, _⟩ => ⟨S1x800000, .i32⟩
  | .hbm, ⟨17, _⟩ => ⟨S800000, .i32⟩
  | .hbm, ⟨18, _⟩ => ⟨S800000x1, .f32⟩
  | .hbm, ⟨19, _⟩ => ⟨S128x128, .f32⟩
  | .hbm, ⟨20, _⟩ => ⟨S128x128, .f32⟩
  | .hbm, ⟨21, _⟩ => ⟨S50000x128, .f32⟩
  | .hbm, ⟨22, _⟩ => ⟨S_, .i32⟩
  | .hbm, ⟨23, _⟩ => ⟨S800000, .i32⟩
  | .hbm, ⟨24, _⟩ => ⟨S800000, .i1⟩
  | .hbm, ⟨25, _⟩ => ⟨S_, .i32⟩
  | .hbm, ⟨26, _⟩ => ⟨S800000, .i32⟩
  | .hbm, ⟨27, _⟩ => ⟨S800000, .i32⟩
  | .hbm, ⟨28, _⟩ => ⟨S800000, .i32⟩
  | .hbm, ⟨29, _⟩ => ⟨S800000x1, .i32⟩
  | .hbm, ⟨30, _⟩ => ⟨S800000x128, .f32⟩
  | .hbm, ⟨31, _⟩ => ⟨S800000x128, .f32⟩
  | .hbm, ⟨32, _⟩ => ⟨S800000x128, .f32⟩
  | .hbm, ⟨33, _⟩ => ⟨S_, .f32⟩
  | .hbm, ⟨34, _⟩ => ⟨S50000x128, .f32⟩
  | .hbm, ⟨35, _⟩ => ⟨S800000x1, .i32⟩
  | .hbm, ⟨36, _⟩ => ⟨S50000x128, .f32⟩
  | .hbm, ⟨37, _⟩ => ⟨S1x128, .f32⟩
  | .hbm, ⟨38, _⟩ => ⟨S50000x128, .f32⟩
  | .hbm, ⟨39, _⟩ => ⟨S128x128, .f32⟩
  | .hbm, ⟨40, _⟩ => ⟨S128x128, .f32⟩
  | .hbm, ⟨41, _⟩ => ⟨S50000x128, .f32⟩
  | .hbm, ⟨42, _⟩ => ⟨S_, .i32⟩
  | .hbm, ⟨43, _⟩ => ⟨S800000, .i32⟩
  | .hbm, ⟨44, _⟩ => ⟨S800000, .i1⟩
  | .hbm, ⟨45, _⟩ => ⟨S_, .i32⟩
  | .hbm, ⟨46, _⟩ => ⟨S800000, .i32⟩
  | .hbm, ⟨47, _⟩ => ⟨S800000, .i32⟩
  | .hbm, ⟨48, _⟩ => ⟨S800000, .i32⟩
  | .hbm, ⟨49, _⟩ => ⟨S800000x1, .i32⟩
  | .hbm, ⟨50, _⟩ => ⟨S800000x128, .f32⟩
  | .hbm, ⟨51, _⟩ => ⟨S800000x128, .f32⟩
  | .hbm, ⟨52, _⟩ => ⟨S800000x128, .f32⟩
  | .hbm, ⟨53, _⟩ => ⟨S_, .f32⟩
  | .hbm, ⟨54, _⟩ => ⟨S50000x128, .f32⟩
  | .hbm, ⟨55, _⟩ => ⟨S800000x1, .i32⟩
  | .hbm, ⟨56, _⟩ => ⟨S50000x128, .f32⟩
  | .hbm, ⟨57, _⟩ => ⟨S1x128, .f32⟩
  | .hbm, ⟨58, _⟩ => ⟨S50000x128, .f32⟩
  | .hbm, ⟨59, _⟩ => ⟨S128x128, .f32⟩
  | .hbm, ⟨60, _⟩ => ⟨S128x128, .f32⟩
  | .hbm, ⟨61, _⟩ => ⟨S50000x128, .f32⟩
  | .hbm, ⟨62, _⟩ => ⟨S_, .i32⟩
  | .hbm, ⟨63, _⟩ => ⟨S800000, .i32⟩
  | .hbm, ⟨64, _⟩ => ⟨S800000, .i1⟩
  | .hbm, ⟨65, _⟩ => ⟨S_, .i32⟩
  | .hbm, ⟨66, _⟩ => ⟨S800000, .i32⟩
  | .hbm, ⟨67, _⟩ => ⟨S800000, .i32⟩
  | .hbm, ⟨68, _⟩ => ⟨S800000, .i32⟩
  | .hbm, ⟨69, _⟩ => ⟨S800000x1, .i32⟩
  | .hbm, ⟨70, _⟩ => ⟨S800000x128, .f32⟩
  | .hbm, ⟨71, _⟩ => ⟨S800000x128, .f32⟩
  | .hbm, ⟨72, _⟩ => ⟨S800000x128, .f32⟩
  | .hbm, ⟨73, _⟩ => ⟨S_, .f32⟩
  | .hbm, ⟨74, _⟩ => ⟨S50000x128, .f32⟩
  | .hbm, ⟨75, _⟩ => ⟨S800000x1, .i32⟩
  | .hbm, ⟨76, _⟩ => ⟨S50000x128, .f32⟩
  | .hbm, ⟨77, _⟩ => ⟨S1x128, .f32⟩
  | .hbm, ⟨78, _⟩ => ⟨S50000x128, .f32⟩
  | .hbm, ⟨79, _⟩ => ⟨S128x32, .f32⟩
  | .hbm, ⟨80, _⟩ => ⟨S1x32, .f32⟩
  | .hbm, ⟨81, _⟩ => ⟨S50000x32, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S128x128, .f32⟩
  | .local _ .vmem, ⟨8, _⟩ => ⟨S1x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S128x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S128x128, .f32⟩
  | .local _ .vmem, ⟨21, _⟩ => ⟨S1x128, .f32⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S5000x128, .f32⟩
  | .local _ .vmem, ⟨27, _⟩ => ⟨S5000x128, .f32⟩
  | .local _ .vmem, ⟨28, _⟩ => ⟨S128x128, .f32⟩
  | .local _ .vmem, ⟨29, _⟩ => ⟨S5000x128, .f32⟩
  | .local _ .vmem, ⟨30, _⟩ => ⟨S5000x128, .f32⟩
  | .local _ .vmem, ⟨31, _⟩ => ⟨S5000x128, .f32⟩
  | .local _ .vmem, ⟨32, _⟩ => ⟨S5000x128, .f32⟩
  | .local _ .vmem, ⟨33, _⟩ => ⟨S128x128, .f32⟩
  | .local _ .vmem, ⟨34, _⟩ => ⟨S1x128, .f32⟩
  | .local _ .vmem, ⟨35, _⟩ => ⟨S5000x128, .f32⟩
  | .local _ .vmem, ⟨36, _⟩ => ⟨S5000x128, .f32⟩
  | .local _ .vmem, ⟨37, _⟩ => ⟨S5000x128, .f32⟩
  | .local _ .vmem, ⟨38, _⟩ => ⟨S5000x128, .f32⟩
  | .local _ .vmem, ⟨39, _⟩ => ⟨S5000x128, .f32⟩
  | .local _ .vmem, ⟨40, _⟩ => ⟨S5000x128, .f32⟩
  | .local _ .vmem, ⟨41, _⟩ => ⟨S128x32, .f32⟩
  | .local _ .vmem, ⟨42, _⟩ => ⟨S1x32, .f32⟩
  | .local _ .vmem, ⟨43, _⟩ => ⟨S5000x32, .f32⟩
  | .local _ .vmem, ⟨44, _⟩ => ⟨S5000x32, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | _, _ => false

abbrev semScoped : Fin 0 → Bool
  | ⟨_, h⟩ => absurd h (Nat.not_lt_zero _)

abbrev dmaSemScoped : Fin 45 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | _ => false

abbrev sig : RefSig :=
  ofTc nBuf bufTy 0 45 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_c : Ref sig .tc := ⟨.hbm, 22, rfl⟩
abbrev main_v8 : Ref sig .tc := ⟨.hbm, 23, rfl⟩
abbrev main_v9 : Ref sig .tc := ⟨.hbm, 24, rfl⟩
abbrev main_c_0 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_cst : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_c_1 : Ref sig .tc := ⟨.hbm, 42, rfl⟩
abbrev main_v25 : Ref sig .tc := ⟨.hbm, 43, rfl⟩
abbrev main_v26 : Ref sig .tc := ⟨.hbm, 44, rfl⟩
abbrev main_c_2 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_cst_3 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_c_4 : Ref sig .tc := ⟨.hbm, 62, rfl⟩
abbrev main_v42 : Ref sig .tc := ⟨.hbm, 63, rfl⟩
abbrev main_v43 : Ref sig .tc := ⟨.hbm, 64, rfl⟩
abbrev main_c_5 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_cst_6 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc1_stg4_0 : Ref sig .tc := ⟨.vmem, 11, rfl⟩
abbrev cc1_stg4_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg2_0 : Ref sig .tc := ⟨.vmem, 16, rfl⟩
abbrev cc2_stg2_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg3_0 : Ref sig .tc := ⟨.vmem, 22, rfl⟩
abbrev cc3_stg3_1 : Ref sig .tc := ⟨.vmem, 23, rfl⟩
abbrev cc3_stg4_0 : Ref sig .tc := ⟨.vmem, 24, rfl⟩
abbrev cc3_stg4_1 : Ref sig .tc := ⟨.vmem, 25, rfl⟩
abbrev cc4_stg0_0 : Ref sig .tc := ⟨.vmem, 26, rfl⟩
abbrev cc4_stg0_1 : Ref sig .tc := ⟨.vmem, 27, rfl⟩
abbrev cc4_stg1_0 : Ref sig .tc := ⟨.vmem, 28, rfl⟩
abbrev cc4_stg2_0 : Ref sig .tc := ⟨.vmem, 29, rfl⟩
abbrev cc4_stg2_1 : Ref sig .tc := ⟨.vmem, 30, rfl⟩
abbrev cc5_stg0_0 : Ref sig .tc := ⟨.vmem, 31, rfl⟩
abbrev cc5_stg0_1 : Ref sig .tc := ⟨.vmem, 32, rfl⟩
abbrev cc5_stg1_0 : Ref sig .tc := ⟨.vmem, 33, rfl⟩
abbrev cc5_stg2_0 : Ref sig .tc := ⟨.vmem, 34, rfl⟩
abbrev cc5_stg3_0 : Ref sig .tc := ⟨.vmem, 35, rfl⟩
abbrev cc5_stg3_1 : Ref sig .tc := ⟨.vmem, 36, rfl⟩
abbrev cc5_stg4_0 : Ref sig .tc := ⟨.vmem, 37, rfl⟩
abbrev cc5_stg4_1 : Ref sig .tc := ⟨.vmem, 38, rfl⟩
abbrev cc6_stg0_0 : Ref sig .tc := ⟨.vmem, 39, rfl⟩
abbrev cc6_stg0_1 : Ref sig .tc := ⟨.vmem, 40, rfl⟩
abbrev cc6_stg1_0 : Ref sig .tc := ⟨.vmem, 41, rfl⟩
abbrev cc6_stg2_0 : Ref sig .tc := ⟨.vmem, 42, rfl⟩
abbrev cc6_stg3_0 : Ref sig .tc := ⟨.vmem, 43, rfl⟩
abbrev cc6_stg3_1 : Ref sig .tc := ⟨.vmem, 44, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc1_sem4_0 : DmaSem sig := 11
abbrev cc1_sem4_1 : DmaSem sig := 12
abbrev cc2_sem0_0 : DmaSem sig := 13
abbrev cc2_sem0_1 : DmaSem sig := 14
abbrev cc2_sem1_0 : DmaSem sig := 15
abbrev cc2_sem2_0 : DmaSem sig := 16
abbrev cc2_sem2_1 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem3_0 : DmaSem sig := 22
abbrev cc3_sem3_1 : DmaSem sig := 23
abbrev cc3_sem4_0 : DmaSem sig := 24
abbrev cc3_sem4_1 : DmaSem sig := 25
abbrev cc4_sem0_0 : DmaSem sig := 26
abbrev cc4_sem0_1 : DmaSem sig := 27
abbrev cc4_sem1_0 : DmaSem sig := 28
abbrev cc4_sem2_0 : DmaSem sig := 29
abbrev cc4_sem2_1 : DmaSem sig := 30
abbrev cc5_sem0_0 : DmaSem sig := 31
abbrev cc5_sem0_1 : DmaSem sig := 32
abbrev cc5_sem1_0 : DmaSem sig := 33
abbrev cc5_sem2_0 : DmaSem sig := 34
abbrev cc5_sem3_0 : DmaSem sig := 35
abbrev cc5_sem3_1 : DmaSem sig := 36
abbrev cc5_sem4_0 : DmaSem sig := 37
abbrev cc5_sem4_1 : DmaSem sig := 38
abbrev cc6_sem0_0 : DmaSem sig := 39
abbrev cc6_sem0_1 : DmaSem sig := 40
abbrev cc6_sem1_0 : DmaSem sig := 41
abbrev cc6_sem2_0 : DmaSem sig := 42
abbrev cc6_sem3_0 : DmaSem sig := 43
abbrev cc6_sem3_1 : DmaSem sig := 44

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S5000x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S128x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S5000x128 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev stage5_4 : Fin 2 → Memref sig .tc .vmem S5000x128 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128x32 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x32 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S5000x32 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S800000_S800000x1_0 : S800000.BroadcastsInDim S800000x1 (![0] : Fin 1 → Fin S800000x1.rank)
  transposes_S128x128_S128x128_1_0 : S128x128.Transposes [1, 0] S128x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  bcast_S_S800000 : S_.BroadcastsInDim S800000 (![] : Fin 0 → Fin S800000.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  shapeCasts_S128_S1x128 : S128.ShapeCasts S1x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  shapeCasts_S5000x128_S5000x128 : S5000x128.ShapeCasts S5000x128
  transposes_S32x128_S128x32_1_0 : S32x128.Transposes [1, 0] S128x32
  shapeCasts_S32_S1x32 : S32.ShapeCasts S1x32
  inb_S128x32_S128x32_0_0 : ∀ a, (![0, 0] : Fin 2 → Nat) a + S128x32.size a ≤ S128x32.size a
  h_S128x32 : 0 < S128x32.numel
  shapeCasts_S128x32_S128x32 : S128x32.ShapeCasts S128x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S5000x32 : S1x32.Broadcasts S5000x32
  inb_S5000x32_S5000x32_0_0 : ∀ a, (![0, 0] : Fin 2 → Nat) a + S5000x32.size a ≤ S5000x32.size a
  h_S5000x32 : 0 < S5000x32.numel
  dot_S5000x128_S128x128_S5000x128_1_0_0_1_n_n_wf : DotDims.WF S5000x128 S128x128 S5000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x32_S5000x32_1_0_0_1_n_n_wf : DotDims.WF S5000x128 S128x32 S5000x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S50000x128.size a
  hwx1_3 : ∀ i : grid1.Coords, EltTy.bits .f32 = 32 ∨ (Rect.block (s := S50000x128) S5000x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S50000x128.size a
  hwx1_4 : ∀ i : grid1.Coords, EltTy.bits .f32 = 32 ∨ (Rect.block (s := S50000x128) S5000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S50000x128.size a
  hwx2_2 : ∀ i : grid2.Coords, EltTy.bits .f32 = 32 ∨ (Rect.block (s := S50000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x128.size a ≤ S50000x128.size a
  hwx3_3 : ∀ i : grid3.Coords, EltTy.bits .f32 = 32 ∨ (Rect.block (s := S50000x128) S5000x128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x128.size a ≤ S50000x128.size a
  hwx3_4 : ∀ i : grid3.Coords, EltTy.bits .f32 = 32 ∨ (Rect.block (s := S50000x128) S5000x128.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x128.size a ≤ S50000x128.size a
  hwx4_2 : ∀ i : grid4.Coords, EltTy.bits .f32 = 32 ∨ (Rect.block (s := S50000x128) S5000x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S50000x128.size a
  hwx5_0 : ∀ i : grid5.Coords, EltTy.bits .f32 = 32 ∨ (Rect.block (s := S50000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S128x128.size a ≤ S128x128.size a
  hwx5_1 : ∀ i : grid5.Coords, EltTy.bits .f32 = 32 ∨ (Rect.block (s := S128x128) S128x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S5000x128.size a ≤ S50000x128.size a
  hwx5_3 : ∀ i : grid5.Coords, EltTy.bits .f32 = 32 ∨ (Rect.block (s := S50000x128) S5000x128.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S5000x128.size a ≤ S50000x128.size a
  hwx5_4 : ∀ i : grid5.Coords, EltTy.bits .f32 = 32 ∨ (Rect.block (s := S50000x128) S5000x128.size (cc5_transform_4 i) (hinb5_4 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S50000x128.size a
  hwx6_0 : ∀ i : grid6.Coords, EltTy.bits .f32 = 32 ∨ (Rect.block (s := S50000x128) S5000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x32.size a ≤ S128x32.size a
  hwx6_1 : ∀ i : grid6.Coords, EltTy.bits .f32 = 32 ∨ (Rect.block (s := S128x32) S128x32.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x32.size a ≤ S1x32.size a
  hwx6_2 : ∀ i : grid6.Coords, EltTy.bits .f32 = 32 ∨ (Rect.block (s := S1x32) S1x32.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S5000x32.size a ≤ S50000x32.size a
  hwx6_3 : ∀ i : grid6.Coords, EltTy.bits .f32 = 32 ∨ (Rect.block (s := S50000x32) S5000x32.size (cc6_transform_3 i) (hinb6_3 i)).WholeWords (EltTy.packing .f32)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x32_S5000x32_1_0_0_1_n_n : DotDims S5000x128 S128x32 S5000x32 where
  lhsContracting := [1]
  rhsContracting := [0]
  lhsNonContracting := [0]
  rhsNonContracting := [1]
  lhsBatch := []
  rhsBatch := []
  wf := dot_S5000x128_S128x32_S5000x32_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v7) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v6) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v20) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v19) S5000x128.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v21) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v21) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v22) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v24) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v21) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v23) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v37) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v36) S5000x128.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v38) S5000x128.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v38) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v39) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v41) S5000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v38) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v40) S128x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v54) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v53) S5000x128.size cc5_transform_3 reads5_3 false false 2 stage5_3 sem5_3
    hrank5 hreads5_3 hinb5_3 nbuf5_3 (Memref.isWhole_whole _) hwx5_3 hstage5_3

abbrev win5_4 : Pipeline.Window sig grid5 :=
  Pipeline.Window.ofSpec (Memref.whole main_v55) S5000x128.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

abbrev win6_0 : Pipeline.Window sig grid6 :=
  Pipeline.Window.ofSpec (Memref.whole main_v55) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v56) S128x32.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v57) S1x32.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v58) S5000x32.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S800000 : Shape := ⟨1, ![800000]⟩
abbrev S128x128 : Shape := ⟨2, ![128, 128]⟩
abbrev S128 : Shape := ⟨1, ![128]⟩
abbrev S32x128 : Shape := ⟨2, ![32, 128]⟩
abbrev S32 : Shape := ⟨1, ![32]⟩
abbrev S1x800000 : Shape := ⟨2, ![1, 800000]⟩
abbrev S800000x1 : Shape := ⟨2, ![800000, 1]⟩
abbrev S_ : Shape := ⟨0, ![]⟩
abbrev S800000x128 : Shape := ⟨2, ![800000, 128]⟩
abbrev S1x128 : Shape := ⟨2, ![1, 128]⟩
abbrev S128x32 : Shape := ⟨2, ![128, 32]⟩
abbrev S50000x32 : Shape := ⟨2, ![50000, 32]⟩
abbrev S1x32 : Shape := ⟨2, ![1, 32]⟩

abbrev nBuf : Space → Nat
  | .hbm => 106
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S800000, .f32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128x128, .f32⟩
  | .hbm, ⟨11, _⟩ => ⟨S128, .f32⟩
  | .hbm, ⟨12, _⟩ => ⟨S32x128, .f32⟩
  | .hbm, ⟨13, _⟩ => ⟨S32, .f32⟩
  | .hbm, ⟨14, _⟩ => ⟨S1x800000, .i32⟩
  | .hbm, ⟨15, _⟩ => ⟨S800000, .i32⟩
  | .hbm, ⟨16, _⟩ => ⟨S1x800000, .i32⟩
  | .hbm, ⟨17, _⟩ => ⟨S800000, .i32⟩
  | .hbm, ⟨18, _⟩ => ⟨S128x128, .f32⟩
  | .hbm, ⟨19, _⟩ => ⟨S50000x128, .f32⟩
  | .hbm, ⟨20, _⟩ => ⟨S800000x1, .f32⟩
  | .hbm, ⟨21, _⟩ => ⟨S_, .i32⟩
  | .hbm, ⟨22, _⟩ => ⟨S800000, .i32⟩
  | .hbm, ⟨23, _⟩ => ⟨S800000, .i1⟩
  | .hbm, ⟨24, _⟩ => ⟨S_, .i32⟩
  | .hbm, ⟨25, _⟩ => ⟨S800000, .i32⟩
  | .hbm, ⟨26, _⟩ => ⟨S800000, .i32⟩
  | .hbm, ⟨27, _⟩ => ⟨S800000, .i32⟩
  | .hbm, ⟨28, _⟩ => ⟨S800000x1, .i32⟩
  | .hbm, ⟨29, _⟩ => ⟨S800000x128, .f32⟩
  | .hbm, ⟨30, _⟩ => ⟨S800000x128, .f32⟩
  | .hbm, ⟨31, _⟩ => ⟨S800000x128, .f32⟩
  | .hbm, ⟨32, _⟩ => ⟨S_, .f32⟩
  | .hbm, ⟨33, _⟩ => ⟨S50000x128, .f32⟩
  | .hbm, ⟨34, _⟩ => ⟨S800000x1, .i32⟩
  | .hbm, ⟨35, _⟩ => ⟨S50000x128, .f32⟩
  | .hbm, ⟨36, _⟩ => ⟨S128x128, .f32⟩
  | .hbm, ⟨37, _⟩ => ⟨S50000x128, .f32⟩
  | .hbm, ⟨38, _⟩ => ⟨S1x128, .f32⟩
  | .hbm, ⟨39, _⟩ => ⟨S50000x128, .f32⟩
  | .hbm, ⟨40, _⟩ => ⟨S50000x128, .f32⟩
  | .hbm, ⟨41, _⟩ => ⟨S50000x128, .f32⟩
  | .hbm, ⟨42, _⟩ => ⟨S50000x128, .f32⟩
  | .hbm, ⟨43, _⟩ => ⟨S1x800000, .i32⟩
  | .hbm, ⟨44, _⟩ => ⟨S800000, .i32⟩
  | .hbm, ⟨45, _⟩ => ⟨S1x800000, .i32⟩
  | .hbm, ⟨46, _⟩ => ⟨S800000, .i32⟩
  | .hbm, ⟨47, _⟩ => ⟨S128x128, .f32⟩
  | .hbm, ⟨48, _⟩ => ⟨S50000x128, .f32⟩
  | .hbm, ⟨49, _⟩ => ⟨S800000x1, .f32⟩
  | .hbm, ⟨50, _⟩ => ⟨S_, .i32⟩
  | .hbm, ⟨51, _⟩ => ⟨S800000, .i32⟩
  | .hbm, ⟨52, _⟩ => ⟨S800000, .i1⟩
  | .hbm, ⟨53, _⟩ => ⟨S_, .i32⟩
  | .hbm, ⟨54, _⟩ => ⟨S800000, .i32⟩
  | .hbm, ⟨55, _⟩ => ⟨S800000, .i32⟩
  | .hbm, ⟨56, _⟩ => ⟨S800000, .i32⟩
  | .hbm, ⟨57, _⟩ => ⟨S800000x1, .i32⟩
  | .hbm, ⟨58, _⟩ => ⟨S800000x128, .f32⟩
  | .hbm, ⟨59, _⟩ => ⟨S800000x128, .f32⟩
  | .hbm, ⟨60, _⟩ => ⟨S800000x128, .f32⟩
  | .hbm, ⟨61, _⟩ => ⟨S_, .f32⟩
  | .hbm, ⟨62, _⟩ => ⟨S50000x128, .f32⟩
  | .hbm, ⟨63, _⟩ => ⟨S800000x1, .i32⟩
  | .hbm, ⟨64, _⟩ => ⟨S50000x128, .f32⟩
  | .hbm, ⟨65, _⟩ => ⟨S128x128, .f32⟩
  | .hbm, ⟨66, _⟩ => ⟨S50000x128, .f32⟩
  | .hbm, ⟨67, _⟩ => ⟨S1x128, .f32⟩
  | .hbm, ⟨68, _⟩ => ⟨S50000x128, .f32⟩
  | .hbm, ⟨69, _⟩ => ⟨S50000x128, .f32⟩
  | .hbm, ⟨70, _⟩ => ⟨S50000x128, .f32⟩
  | .hbm, ⟨71, _⟩ => ⟨S50000x128, .f32⟩
  | .hbm, ⟨72, _⟩ => ⟨S1x800000, .i32⟩
  | .hbm, ⟨73, _⟩ => ⟨S800000, .i32⟩
  | .hbm, ⟨74, _⟩ => ⟨S1x800000, .i32⟩
  | .hbm, ⟨75, _⟩ => ⟨S800000, .i32⟩
  | .hbm, ⟨76, _⟩ => ⟨S128x128, .f32⟩
  | .hbm, ⟨77, _⟩ => ⟨S50000x128, .f32⟩
  | .hbm, ⟨78, _⟩ => ⟨S800000x1, .f32⟩
  | .hbm, ⟨79, _⟩ => ⟨S_, .i32⟩
  | .hbm, ⟨80, _⟩ => ⟨S800000, .i32⟩
  | .hbm, ⟨81, _⟩ => ⟨S800000, .i1⟩
  | .hbm, ⟨82, _⟩ => ⟨S_, .i32⟩
  | .hbm, ⟨83, _⟩ => ⟨S800000, .i32⟩
  | .hbm, ⟨84, _⟩ => ⟨S800000, .i32⟩
  | .hbm, ⟨85, _⟩ => ⟨S800000, .i32⟩
  | .hbm, ⟨86, _⟩ => ⟨S800000x1, .i32⟩
  | .hbm, ⟨87, _⟩ => ⟨S800000x128, .f32⟩
  | .hbm, ⟨88, _⟩ => ⟨S800000x128, .f32⟩
  | .hbm, ⟨89, _⟩ => ⟨S800000x128, .f32⟩
  | .hbm, ⟨90, _⟩ => ⟨S_, .f32⟩
  | .hbm, ⟨91, _⟩ => ⟨S50000x128, .f32⟩
  | .hbm, ⟨92, _⟩ => ⟨S800000x1, .i32⟩
  | .hbm, ⟨93, _⟩ => ⟨S50000x128, .f32⟩
  | .hbm, ⟨94, _⟩ => ⟨S128x128, .f32⟩
  | .hbm, ⟨95, _⟩ => ⟨S50000x128, .f32⟩
  | .hbm, ⟨96, _⟩ => ⟨S1x128, .f32⟩
  | .hbm, ⟨97, _⟩ => ⟨S50000x128, .f32⟩
  | .hbm, ⟨98, _⟩ => ⟨S50000x128, .f32⟩
  | .hbm, ⟨99, _⟩ => ⟨S50000x128, .f32⟩
  | .hbm, ⟨100, _⟩ => ⟨S50000x128, .f32⟩
  | .hbm, ⟨101, _⟩ => ⟨S128x32, .f32⟩
  | .hbm, ⟨102, _⟩ => ⟨S50000x32, .f32⟩
  | .hbm, ⟨103, _⟩ => ⟨S1x32, .f32⟩
  | .hbm, ⟨104, _⟩ => ⟨S50000x32, .f32⟩
  | .hbm, ⟨105, _⟩ => ⟨S50000x32, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_c : Ref sig .tc := ⟨.hbm, 21, rfl⟩
abbrev main_v7 : Ref sig .tc := ⟨.hbm, 22, rfl⟩
abbrev main_v8 : Ref sig .tc := ⟨.hbm, 23, rfl⟩
abbrev main_c_0 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_cst : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_1 : Ref sig .tc := ⟨.hbm, 50, rfl⟩
abbrev main_v33 : Ref sig .tc := ⟨.hbm, 51, rfl⟩
abbrev main_v34 : Ref sig .tc := ⟨.hbm, 52, rfl⟩
abbrev main_c_2 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_3 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_c_4 : Ref sig .tc := ⟨.hbm, 79, rfl⟩
abbrev main_v59 : Ref sig .tc := ⟨.hbm, 80, rfl⟩
abbrev main_v60 : Ref sig .tc := ⟨.hbm, 81, rfl⟩
abbrev main_c_5 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_cst_6 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  transposes_S128x128_S128x128_1_0 : S128x128.Transposes [1, 0] S128x128
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  transposes_S32x128_S128x32_1_0 : S32x128.Transposes [1, 0] S128x32
  bcast_S32_S1x32_1 : S32.BroadcastsInDim S1x32 (![1] : Fin 1 → Fin S1x32.rank)
  bcast_S1x32_S50000x32_0_1 : S1x32.BroadcastsInDim S50000x32 (![0, 1] : Fin 2 → Fin S50000x32.rank)
  dot_S50000x128_S128x128_S50000x128_1_0_0_1_n_n_wf : DotDims.WF S50000x128 S128x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x32_S50000x32_1_0_0_1_n_n_wf : DotDims.WF S50000x128 S128x32 S50000x32 [1] [0] [0] [1] [] []

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x32_S50000x32_1_0_0_1_n_n : DotDims S50000x128 S128x32 S50000x32 where
  lhsContracting := [1]
  rhsContracting := [0]
  lhsNonContracting := [0]
  rhsNonContracting := [1]
  lhsBatch := []
  rhsBatch := []
  wf := dot_S50000x128_S128x32_S50000x32_1_0_0_1_n_n_wf

class Facts : Prop extends Facts₀ where

variable [Facts]
-- ==== Proof.KernelRun.lean ====
/-
  The idealized kernel's run, with its result.

  @main is seven stretches of host operations alternating with seven calls.  Walking these fourteen segments from
  the launch memory, every buffer that outlives its call ends at the contents the walk assigns it (the fold W0 … W14 of
  the frame module): a host stretch leaves each buffer at its operations' result, a call leaves its output array at
  what its ten write-backs leave and every other buffer untouched.  The frame claim keeps, of that final state,
  only that the fourteen argument arrays are as launched; for the value of the program we keep one more buffer of
  the same final state -- the result array, which ends at the walk's last contents W14.  Every weakly fair execution
  terminates without a fault in such a state: the same launch over the same segments, read once more at the end.
-/
import proofs.«158552_j34832184771009_1_alg».proof.Proof.KernelIdealFrameP

set_option maxRecDepth 16384

noncomputable section

namespace Cert.Mpnn

open Cert.KernelIdeal Cert.KernelIdeal.Gen Cert.KernelIdeal.GenP

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- From any memory with zero counters every weakly fair execution of @main terminates, nothing faulting, with the
    result array at the last contents of the walk through @main's segments and the argument arrays as launched. -/
theorem run_result : θ_run defs (onTc (τ := τ) (main (F := F))) ⟨m, fun _ => 0, ρ⟩ (fun r => ∀ c : Dev nD,
      r.2.mem ((c.tc : Thread nD τ).loc main_v58) = W14 m ρ c (Proc.devRef .tc main_v58)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h c =>
      ⟨h c _ (mem_uc main_v58 (by decide)),
       (h c _ (mem_uc main_arg0 (by decide))).trans (W14_main_arg0 m ρ c),
       (h c _ (mem_uc main_arg1 (by decide))).trans (W14_main_arg1 m ρ c),
       (h c _ (mem_uc main_arg2 (by decide))).trans (W14_main_arg2 m ρ c),
       (h c _ (mem_uc main_arg3 (by decide))).trans (W14_main_arg3 m ρ c),
       (h c _ (mem_uc main_arg4 (by decide))).trans (W14_main_arg4 m ρ c),
       (h c _ (mem_uc main_arg5 (by decide))).trans (W14_main_arg5 m ρ c),
       (h c _ (mem_uc main_arg6 (by decide))).trans (W14_main_arg6 m ρ c),
       (h c _ (mem_uc main_arg7 (by decide))).trans (W14_main_arg7 m ρ c),
       (h c _ (mem_uc main_arg8 (by decide))).trans (W14_main_arg8 m ρ c),
       (h c _ (mem_uc main_arg9 (by decide))).trans (W14_main_arg9 m ρ c),
       (h c _ (mem_uc main_arg10 (by decide))).trans (W14_main_arg10 m ρ c),
       (h c _ (mem_uc main_arg11 (by decide))).trans (W14_main_arg11 m ρ c),
       (h c _ (mem_uc main_arg12 (by decide))).trans (W14_main_arg12 m ρ c),
       (h c _ (mem_uc main_arg13 (by decide))).trans (W14_main_arg13 m ρ c)⟩)

end Cert.Mpnn

end
-- ==== Proof.DotAtIndex.lean ====
/-
  Matrix products read at an index.

  Every dense stage of the network is a product of a row-major [rows, 128] array with a [128, cols] weight.  At the
  ideal values both spellings of that product -- the kernel's block product into a zero accumulator and the host's
  dot_general of the whole arrays -- are, at row r and column c, the same plain sum over the 128 contracted positions
      sum over k of  x[r, k] * w[k, c].
  This file states that once for a general product record whose one contracted axis is the left operand's columns
  and the right operand's rows, and then for the four product records the two programs use.
-/
import proofs.«158552_j34832184771009_1_alg».proof.Proof.Gen.KernelIdeal
import proofs.«158552_j34832184771009_1_alg».proof.Proof.Gen.ReferenceIdeal
import Idealize.ShloMosaic.PureOps.Ideal.Laws
import Idealize.ShloMosaic.Lib.ValueIdx

noncomputable section

open scoped BigOperators

namespace Cert.Mpnn

open Idealize.ShloMosaic Idealize.ShloMosaic.ValueIdx

/-- For a product record over [M, K] x [K, N] -> [M, N] with ONE contracted axis of extent K, whose left index at
    output (r, c) and contraction position q is (r, q) and whose right index is (q, c): the contraction's sum at
    (r, c) is the sum over k < K of x[r, k] * w[k, c].  The contraction index set is carried to Fin K by the
    bijection that reads off its single coordinate. -/
theorem contraction_sum {M K N : Nat}
    (d : DotDims (⟨2, ![M, K]⟩ : Shape) (⟨2, ![K, N]⟩ : Shape) (⟨2, ![M, N]⟩ : Shape))
    (hr : d.contr.rank = 1) (hs : d.contr.size ⟨0, by omega⟩ = K)
    (hl0 : ∀ (j : (⟨2, ![M, N]⟩ : Shape).Idx) (q : d.contr.Idx), (d.lhsIdx j q 0).val = (j 0).val)
    (hl1 : ∀ (j : (⟨2, ![M, N]⟩ : Shape).Idx) (q : d.contr.Idx), (d.lhsIdx j q 1).val = (q ⟨0, by omega⟩).val)
    (hr0 : ∀ (j : (⟨2, ![M, N]⟩ : Shape).Idx) (q : d.contr.Idx), (d.rhsIdx j q 0).val = (q ⟨0, by omega⟩).val)
    (hr1 : ∀ (j : (⟨2, ![M, N]⟩ : Shape).Idx) (q : d.contr.Idx), (d.rhsIdx j q 1).val = (j 1).val)
    (x : (⟨2, ![M, K]⟩ : Shape).Idx → EReal) (w : (⟨2, ![K, N]⟩ : Shape).Idx → EReal) (r : Fin M) (c : Fin N) :
    ∑ q : d.contr.Idx, x (d.lhsIdx (ix2 r c) q) * w (d.rhsIdx (ix2 r c) q) = ∑ k : Fin K, x (ix2 r k) * w (ix2 k c) := by
  rw [← Equiv.sum_comp (contrEquiv1 d K hr hs).symm]
  refine Finset.sum_congr rfl fun k _ => ?_
  have hk := contrEquiv1_symm_val d K hr hs k
  have el : d.lhsIdx (ix2 r c) ((contrEquiv1 d K hr hs).symm k) = ix2 r k := funext fun a => Fin.ext (by
    match a with
    | ⟨0, _⟩ => exact hl0 _ _
    | ⟨1, _⟩ => exact (hl1 _ _).trans hk)
  have er : d.rhsIdx (ix2 r c) ((contrEquiv1 d K hr hs).symm k) = ix2 k c := funext fun a => Fin.ext (by
    match a with
    | ⟨0, _⟩ => exact (hr0 _ _).trans hk
    | ⟨1, _⟩ => exact hr1 _ _)
  rw [el, er]

/-! ## The kernel's block products: a [5000, 128] block of rows against a whole weight -/

/-- A block of 5000 rows times a [128, 128] weight, into the zero accumulator: the plain sum. -/
theorem blockProduct_apply {φ₁ φ₂ : FTy} (x : FVec Ideal Cert.KernelIdeal.S5000x128 φ₁) (w : FVec Ideal Cert.KernelIdeal.S128x128 φ₂)
    (r : Fin 5000) (c : Fin 128) :
    matmul (F := Ideal) Cert.KernelIdeal.dot_S5000x128_S128x128_S5000x128_1_0_0_1_n_n none x w
        (constant (F := Ideal) Cert.KernelIdeal.S5000x128 .f32 0x00000000#32) (ix2 r c)
      = ∑ k : Fin 128, x (ix2 r k) * w (ix2 k c) := by
  show FloatOps.matmul _ _ _ _ _ _ = _
  rw [Ideal.matmul_constant_zero_apply]
  exact contraction_sum Cert.KernelIdeal.dot_S5000x128_S128x128_S5000x128_1_0_0_1_n_n rfl rfl
    (fun j q => by
      unfold DotDims.lhsIdx
      rw [dif_neg (show ¬(0 : Fin Cert.KernelIdeal.S5000x128.rank) ∈ Cert.KernelIdeal.dot_S5000x128_S128x128_S5000x128_1_0_0_1_n_n.lhsBatch by decide),
        dif_pos (show (0 : Fin Cert.KernelIdeal.S5000x128.rank) ∈ Cert.KernelIdeal.dot_S5000x128_S128x128_S5000x128_1_0_0_1_n_n.lhsNonContracting by decide)]
      rfl)
    (fun j q => Cert.KernelIdeal.dot_S5000x128_S128x128_S5000x128_1_0_0_1_n_n.lhsIdx_val_of_single rfl j q)
    (fun j q => Cert.KernelIdeal.dot_S5000x128_S128x128_S5000x128_1_0_0_1_n_n.rhsIdx_val_of_single rfl j q)
    (fun j q => by
      unfold DotDims.rhsIdx
      rw [dif_neg (show ¬(1 : Fin Cert.KernelIdeal.S128x128.rank) ∈ Cert.KernelIdeal.dot_S5000x128_S128x128_S5000x128_1_0_0_1_n_n.rhsBatch by decide),
        dif_pos (show (1 : Fin Cert.KernelIdeal.S128x128.rank) ∈ Cert.KernelIdeal.dot_S5000x128_S128x128_S5000x128_1_0_0_1_n_n.rhsNonContracting by decide)]
      rfl)
    x w r c

/-- A block of 5000 rows times the [128, 32] output weight, into the zero accumulator: the plain sum. -/
theorem blockProductOut_apply {φ₁ φ₂ : FTy} (x : FVec Ideal Cert.KernelIdeal.S5000x128 φ₁) (w : FVec Ideal Cert.KernelIdeal.S128x32 φ₂)
    (r : Fin 5000) (c : Fin 32) :
    matmul (F := Ideal) Cert.KernelIdeal.dot_S5000x128_S128x32_S5000x32_1_0_0_1_n_n none x w
        (constant (F := Ideal) Cert.KernelIdeal.S5000x32 .f32 0x00000000#32) (ix2 r c)
      = ∑ k : Fin 128, x (ix2 r k) * w (ix2 k c) := by
  show FloatOps.matmul _ _ _ _ _ _ = _
  rw [Ideal.matmul_constant_zero_apply]
  exact contraction_sum Cert.KernelIdeal.dot_S5000x128_S128x32_S5000x32_1_0_0_1_n_n rfl rfl
    (fun j q => by
      unfold DotDims.lhsIdx
      rw [dif_neg (show ¬(0 : Fin Cert.KernelIdeal.S5000x128.rank) ∈ Cert.KernelIdeal.dot_S5000x128_S128x32_S5000x32_1_0_0_1_n_n.lhsBatch by decide),
        dif_pos (show (0 : Fin Cert.KernelIdeal.S5000x128.rank) ∈ Cert.KernelIdeal.dot_S5000x128_S128x32_S5000x32_1_0_0_1_n_n.lhsNonContracting by decide)]
      rfl)
    (fun j q => Cert.KernelIdeal.dot_S5000x128_S128x32_S5000x32_1_0_0_1_n_n.lhsIdx_val_of_single rfl j q)
    (fun j q => Cert.KernelIdeal.dot_S5000x128_S128x32_S5000x32_1_0_0_1_n_n.rhsIdx_val_of_single rfl j q)
    (fun j q => by
      unfold DotDims.rhsIdx
      rw [dif_neg (show ¬(1 : Fin Cert.KernelIdeal.S128x32.rank) ∈ Cert.KernelIdeal.dot_S5000x128_S128x32_S5000x32_1_0_0_1_n_n.rhsBatch by decide),
        dif_pos (show (1 : Fin Cert.KernelIdeal.S128x32.rank) ∈ Cert.KernelIdeal.dot_S5000x128_S128x32_S5000x32_1_0_0_1_n_n.rhsNonContracting by decide)]
      rfl)
    x w r c

/-! ## The host's whole-array products -/

/-- The host's product of the whole [50000, 128] array with a [128, 128] weight: the plain sum. -/
theorem hostProduct_apply {φ₁ φ₂ : FTy} (x : FVec Ideal Cert.ReferenceIdeal.S50000x128 φ₁) (w : FVec Ideal Cert.ReferenceIdeal.S128x128 φ₂)
    (r : Fin 50000) (c : Fin 128) :
    Host.dotGeneral (F := Ideal) Cert.ReferenceIdeal.dot_S50000x128_S128x128_S50000x128_1_0_0_1_n_n none x w (ix2 r c)
      = ∑ k : Fin 128, x (ix2 r k) * w (ix2 k c) := by
  show FloatOps.dotGeneral _ _ _ _ _ _ = _
  rw [Ideal.dotGeneral_apply]
  exact contraction_sum Cert.ReferenceIdeal.dot_S50000x128_S128x128_S50000x128_1_0_0_1_n_n rfl rfl
    (fun j q => by
      unfold DotDims.lhsIdx
      rw [dif_neg (show ¬(0 : Fin Cert.ReferenceIdeal.S50000x128.rank) ∈ Cert.ReferenceIdeal.dot_S50000x128_S128x128_S50000x128_1_0_0_1_n_n.lhsBatch by decide),
        dif_pos (show (0 : Fin Cert.ReferenceIdeal.S50000x128.rank) ∈ Cert.ReferenceIdeal.dot_S50000x128_S128x128_S50000x128_1_0_0_1_n_n.lhsNonContracting by decide)]
      rfl)
    (fun j q => Cert.ReferenceIdeal.dot_S50000x128_S128x128_S50000x128_1_0_0_1_n_n.lhsIdx_val_of_single rfl j q)
    (fun j q => Cert.ReferenceIdeal.dot_S50000x128_S128x128_S50000x128_1_0_0_1_n_n.rhsIdx_val_of_single rfl j q)
    (fun j q => by
      unfold DotDims.rhsIdx
      rw [dif_neg (show ¬(1 : Fin Cert.ReferenceIdeal.S128x128.rank) ∈ Cert.ReferenceIdeal.dot_S50000x128_S128x128_S50000x128_1_0_0_1_n_n.rhsBatch by decide),
        dif_pos (show (1 : Fin Cert.ReferenceIdeal.S128x128.rank) ∈ Cert.ReferenceIdeal.dot_S50000x128_S128x128_S50000x128_1_0_0_1_n_n.rhsNonContracting by decide)]
      rfl)
    x w r c

/-- The host's product of the whole [50000, 128] array with the [128, 32] output weight: the plain sum. -/
theorem hostProductOut_apply {φ₁ φ₂ : FTy} (x : FVec Ideal Cert.ReferenceIdeal.S50000x128 φ₁) (w : FVec Ideal Cert.ReferenceIdeal.S128x32 φ₂)
    (r : Fin 50000) (c : Fin 32) :
    Host.dotGeneral (F := Ideal) Cert.ReferenceIdeal.dot_S50000x128_S128x32_S50000x32_1_0_0_1_n_n none x w (ix2 r c)
      = ∑ k : Fin 128, x (ix2 r k) * w (ix2 k c) := by
  show FloatOps.dotGeneral _ _ _ _ _ _ = _
  rw [Ideal.dotGeneral_apply]
  exact contraction_sum Cert.ReferenceIdeal.dot_S50000x128_S128x32_S50000x32_1_0_0_1_n_n rfl rfl
    (fun j q => by
      unfold DotDims.lhsIdx
      rw [dif_neg (show ¬(0 : Fin Cert.ReferenceIdeal.S50000x128.rank) ∈ Cert.ReferenceIdeal.dot_S50000x128_S128x32_S50000x32_1_0_0_1_n_n.lhsBatch by decide),
        dif_pos (show (0 : Fin Cert.ReferenceIdeal.S50000x128.rank) ∈ Cert.ReferenceIdeal.dot_S50000x128_S128x32_S50000x32_1_0_0_1_n_n.lhsNonContracting by decide)]
      rfl)
    (fun j q => Cert.ReferenceIdeal.dot_S50000x128_S128x32_S50000x32_1_0_0_1_n_n.lhsIdx_val_of_single rfl j q)
    (fun j q => Cert.ReferenceIdeal.dot_S50000x128_S128x32_S50000x32_1_0_0_1_n_n.rhsIdx_val_of_single rfl j q)
    (fun j q => by
      unfold DotDims.rhsIdx
      rw [dif_neg (show ¬(1 : Fin Cert.ReferenceIdeal.S128x32.rank) ∈ Cert.ReferenceIdeal.dot_S50000x128_S128x32_S50000x32_1_0_0_1_n_n.rhsBatch by decide),
        dif_pos (show (1 : Fin Cert.ReferenceIdeal.S128x32.rank) ∈ Cert.ReferenceIdeal.dot_S50000x128_S128x32_S50000x32_1_0_0_1_n_n.rhsNonContracting by decide)]
      rfl)
    x w r c

end Cert.Mpnn

end
-- ==== Proof.Payloads.lean ====
/-
  What each kernel body computes from the blocks it loads, read at one element.

  A body sees a block of 5000 consecutive rows of the node features, a whole weight, and (for the update and the
  output layer) the bias row and the matching block of aggregated messages.  Its stored value at row r, column c of
  the block is

      linear bodies :  sum over k of x[r, k] * w[k, c]
      update bodies :  tanh ( (sum over k of x[r, k] * w[k, c]) + b[0, c] + a[r, c] )
      output body   :  (sum over k of x[r, k] * w[k, c]) + b[0, c]

  The narrowing of both operands to bf16 before the product is the identity at the ideal values, a shape cast to the
  same shape is the identity, and the bias row broadcast down the block reads its own column.
-/
import proofs.«158552_j34832184771009_1_alg».proof.Proof.Gen.KernelIdeal.Skeleton
import proofs.«158552_j34832184771009_1_alg».proof.Proof.DotAtIndex
import Idealize.ShloMosaic.Lib.Pipeline.Value

noncomputable section

open scoped BigOperators

namespace Cert.Mpnn

open Idealize.ShloMosaic Idealize.ShloMosaic.ValueIdx Cert.KernelIdeal Cert.KernelIdeal.Gen

/-- The origin of a rank-2 block, as the constant function the block-reading lemmas ask for. -/
theorem origin2 : (![0, 0] : Fin 2 → Nat) = fun _ => 0 := funext fun a => by fin_cases a <;> rfl

/-- The vector tanh at an element is the extended reals' tanh of the element. -/
theorem tanh_apply {s : Shape} {φ : FTy} (x : FVec Ideal s φ) (i : s.Idx) : tanh (F := Ideal) x i = Ideal.tanh (x i) := rfl

/-- A [1, 128] row broadcast down 5000 rows reads, at (r, c), the row's column c. -/
theorem biasRow_apply (b : S1x128.Idx → EReal) (h : S1x128.Broadcasts S5000x128) (r : Fin 5000) (c : Fin 128) :
    broadcastTo S5000x128 b h (ix2 r c) = b (ix2 (0 : Fin 1) c) :=
  broadcastTo_apply b h (ix2 r c) (ix2 (0 : Fin 1) c) (fun a => by
    match a with
    | ⟨0, _⟩ => rfl
    | ⟨1, _⟩ => rfl)

/-- A [1, 32] row broadcast down 5000 rows reads, at (r, c), the row's column c. -/
theorem biasRowOut_apply (b : S1x32.Idx → EReal) (h : S1x32.Broadcasts S5000x32) (r : Fin 5000) (c : Fin 32) :
    broadcastTo S5000x32 b h (ix2 r c) = b (ix2 (0 : Fin 1) c) :=
  broadcastTo_apply b h (ix2 r c) (ix2 (0 : Fin 1) c) (fun a => by
    match a with
    | ⟨0, _⟩ => rfl
    | ⟨1, _⟩ => rfl)

/-! ## The linear bodies (first, third and fifth calls) -/

theorem linear0_apply (x : Vec Ideal S5000x128 .f32) (w : Vec Ideal S128x128 .f32) (r : Fin 5000) (c : Fin 128) :
    k0_pay1 (F := Ideal) x w (ix2 r c) = ∑ k : Fin 128, x (ix2 r k) * w (ix2 k c) := by
  unfold k0_pay1
  simp only [shapeCast_self]
  exact blockProduct_apply _ _ r c

theorem linear2_apply (x : Vec Ideal S5000x128 .f32) (w : Vec Ideal S128x128 .f32) (r : Fin 5000) (c : Fin 128) :
    k2_pay1 (F := Ideal) x w (ix2 r c) = ∑ k : Fin 128, x (ix2 r k) * w (ix2 k c) := by
  unfold k2_pay1
  simp only [shapeCast_self]
  exact blockProduct_apply _ _ r c

theorem linear4_apply (x : Vec Ideal S5000x128 .f32) (w : Vec Ideal S128x128 .f32) (r : Fin 5000) (c : Fin 128) :
    k4_pay1 (F := Ideal) x w (ix2 r c) = ∑ k : Fin 128, x (ix2 r k) * w (ix2 k c) := by
  unfold k4_pay1
  simp only [shapeCast_self]
  exact blockProduct_apply _ _ r c

/-! ## The update bodies (second, fourth and sixth calls) -/

theorem update1_apply (x : Vec Ideal S5000x128 .f32) (w : Vec Ideal S128x128 .f32) (b : Vec Ideal S1x128 .f32)
    (a : Vec Ideal S5000x128 .f32) (r : Fin 5000) (c : Fin 128) :
    k1_pay1 (F := Ideal) x w b a (ix2 r c)
      = Ideal.tanh ((∑ k : Fin 128, x (ix2 r k) * w (ix2 k c)) + b (ix2 (0 : Fin 1) c) + a (ix2 r c)) := by
  unfold k1_pay1
  simp only [shapeCast_self]
  rw [tanh_apply, addf_apply, addf_apply, biasRow_apply]
  exact congrArg (fun s => Ideal.tanh (s + b (ix2 (0 : Fin 1) c) + a (ix2 r c))) (blockProduct_apply _ _ r c)

theorem update3_apply (x : Vec Ideal S5000x128 .f32) (w : Vec Ideal S128x128 .f32) (b : Vec Ideal S1x128 .f32)
    (a : Vec Ideal S5000x128 .f32) (r : Fin 5000) (c : Fin 128) :
    k3_pay1 (F := Ideal) x w b a (ix2 r c)
      = Ideal.tanh ((∑ k : Fin 128, x (ix2 r k) * w (ix2 k c)) + b (ix2 (0 : Fin 1) c) + a (ix2 r c)) := by
  unfold k3_pay1
  simp only [shapeCast_self]
  rw [tanh_apply, addf_apply, addf_apply, biasRow_apply]
  exact congrArg (fun s => Ideal.tanh (s + b (ix2 (0 : Fin 1) c) + a (ix2 r c))) (blockProduct_apply _ _ r c)

theorem update5_apply (x : Vec Ideal S5000x128 .f32) (w : Vec Ideal S128x128 .f32) (b : Vec Ideal S1x128 .f32)
    (a : Vec Ideal S5000x128 .f32) (r : Fin 5000) (c : Fin 128) :
    k5_pay1 (F := Ideal) x w b a (ix2 r c)
      = Ideal.tanh ((∑ k : Fin 128, x (ix2 r k) * w (ix2 k c)) + b (ix2 (0 : Fin 1) c) + a (ix2 r c)) := by
  unfold k5_pay1
  simp only [shapeCast_self]
  rw [tanh_apply, addf_apply, addf_apply, biasRow_apply]
  exact congrArg (fun s => Ideal.tanh (s + b (ix2 (0 : Fin 1) c) + a (ix2 r c))) (blockProduct_apply _ _ r c)

/-! ## The output body (seventh call) -/

theorem readout6_apply (x : Vec Ideal S5000x128 .f32) (w : Vec Ideal S128x32 .f32) (b : Vec Ideal S1x32 .f32)
    (r : Fin 5000) (c : Fin 32) :
    k6_pay1 (F := Ideal) x w b (ix2 r c) = (∑ k : Fin 128, x (ix2 r k) * w (ix2 k c)) + b (ix2 (0 : Fin 1) c) := by
  unfold k6_pay1
  simp only [shapeCast_self]
  rw [addf_apply, biasRowOut_apply]
  exact congrArg (fun s => s + b (ix2 (0 : Fin 1) c)) (blockProductOut_apply _ _ r c)

/-! ## The same, at a general index of the block -/

theorem linear0_at (x : Vec Ideal S5000x128 .f32) (w : Vec Ideal S128x128 .f32) (j : S5000x128.Idx) :
    k0_pay1 (F := Ideal) x w j = ∑ k : Fin 128, x (ix2 (j 0) k) * w (ix2 k (j 1)) := by
  obtain ⟨r, c, rfl⟩ : ∃ (r : Fin 5000) (c : Fin 128), j = ix2 r c := ⟨j 0, j 1, eq_ix2 j⟩
  exact linear0_apply x w r c

theorem linear2_at (x : Vec Ideal S5000x128 .f32) (w : Vec Ideal S128x128 .f32) (j : S5000x128.Idx) :
    k2_pay1 (F := Ideal) x w j = ∑ k : Fin 128, x (ix2 (j 0) k) * w (ix2 k (j 1)) := by
  obtain ⟨r, c, rfl⟩ : ∃ (r : Fin 5000) (c : Fin 128), j = ix2 r c := ⟨j 0, j 1, eq_ix2 j⟩
  exact linear2_apply x w r c

theorem linear4_at (x : Vec Ideal S5000x128 .f32) (w : Vec Ideal S128x128 .f32) (j : S5000x128.Idx) :
    k4_pay1 (F := Ideal) x w j = ∑ k : Fin 128, x (ix2 (j 0) k) * w (ix2 k (j 1)) := by
  obtain ⟨r, c, rfl⟩ : ∃ (r : Fin 5000) (c : Fin 128), j = ix2 r c := ⟨j 0, j 1, eq_ix2 j⟩
  exact linear4_apply x w r c

theorem update1_at (x : Vec Ideal S5000x128 .f32) (w : Vec Ideal S128x128 .f32) (b : Vec Ideal S1x128 .f32)
    (a : Vec Ideal S5000x128 .f32) (j : S5000x128.Idx) :
    k1_pay1 (F := Ideal) x w b a j
      = Ideal.tanh ((∑ k : Fin 128, x (ix2 (j 0) k) * w (ix2 k (j 1))) + b (ix2 (0 : Fin 1) (j 1)) + a j) := by
  obtain ⟨r, c, rfl⟩ : ∃ (r : Fin 5000) (c : Fin 128), j = ix2 r c := ⟨j 0, j 1, eq_ix2 j⟩
  exact update1_apply x w b a r c

theorem update3_at (x : Vec Ideal S5000x128 .f32) (w : Vec Ideal S128x128 .f32) (b : Vec Ideal S1x128 .f32)
    (a : Vec Ideal S5000x128 .f32) (j : S5000x128.Idx) :
    k3_pay1 (F := Ideal) x w b a j
      = Ideal.tanh ((∑ k : Fin 128, x (ix2 (j 0) k) * w (ix2 k (j 1))) + b (ix2 (0 : Fin 1) (j 1)) + a j) := by
  obtain ⟨r, c, rfl⟩ : ∃ (r : Fin 5000) (c : Fin 128), j = ix2 r c := ⟨j 0, j 1, eq_ix2 j⟩
  exact update3_apply x w b a r c

theorem update5_at (x : Vec Ideal S5000x128 .f32) (w : Vec Ideal S128x128 .f32) (b : Vec Ideal S1x128 .f32)
    (a : Vec Ideal S5000x128 .f32) (j : S5000x128.Idx) :
    k5_pay1 (F := Ideal) x w b a j
      = Ideal.tanh ((∑ k : Fin 128, x (ix2 (j 0) k) * w (ix2 k (j 1))) + b (ix2 (0 : Fin 1) (j 1)) + a j) := by
  obtain ⟨r, c, rfl⟩ : ∃ (r : Fin 5000) (c : Fin 128), j = ix2 r c := ⟨j 0, j 1, eq_ix2 j⟩
  exact update5_apply x w b a r c

theorem readout6_at (x : Vec Ideal S5000x128 .f32) (w : Vec Ideal S128x32 .f32) (b : Vec Ideal S1x32 .f32) (j : S5000x32.Idx) :
    k6_pay1 (F := Ideal) x w b j = (∑ k : Fin 128, x (ix2 (j 0) k) * w (ix2 k (j 1))) + b (ix2 (0 : Fin 1) (j 1)) := by
  obtain ⟨r, c, rfl⟩ : ∃ (r : Fin 5000) (c : Fin 32), j = ix2 r c := ⟨j 0, j 1, eq_ix2 j⟩
  exact readout6_apply x w b r c

end Cert.Mpnn

end
-- ==== Proof.Layers.lean ====
/-
  The three dense stages of the message-passing network, as functions of whole arrays, index by index.

  Nodes are the 50000 rows; features the 128 columns.  With X the node features, W a weight already transposed to
  [in, out], b a bias stored as one row, and A the aggregated messages:

      dense   X W      [n, c] = sum over k < 128 of X[n, k] * W[k, c]              the linear message
      update  X W b A  [n, c] = tanh ( dense X W [n, c] + b[0, c] + A[n, c] )      the node update
      readout X W b    [n, c] = (sum over k < 128 of X[n, k] * W[k, c]) + b[0, c]  the output layer, 32 columns

  The sums and the additions are those of the extended reals, in this grouping: first the product's sum, then the
  bias, then the aggregate.  Both programs compute exactly these, so no law beyond re-indexing a sum is needed.
-/
import Idealize.ShloMosaic.PureOps.Ideal
import Idealize.ShloMosaic.Lib.ValueIdx

noncomputable section

open scoped BigOperators

namespace Cert.Mpnn

open Idealize.ShloMosaic Idealize.ShloMosaic.ValueIdx

/-- The linear message: every node's features times a [128, 128] weight. -/
def dense (X : (⟨2, ![50000, 128]⟩ : Shape).Idx → EReal) (W : (⟨2, ![128, 128]⟩ : Shape).Idx → EReal) :
    (⟨2, ![50000, 128]⟩ : Shape).Idx → EReal :=
  fun i => ∑ k : Fin 128, X (ix2 (i 0) k) * W (ix2 k (i 1))

/-- The node update: tanh of the product, plus the bias row, plus the aggregated messages. -/
def update (X : (⟨2, ![50000, 128]⟩ : Shape).Idx → EReal) (W : (⟨2, ![128, 128]⟩ : Shape).Idx → EReal)
    (b : (⟨2, ![1, 128]⟩ : Shape).Idx → EReal) (A : (⟨2, ![50000, 128]⟩ : Shape).Idx → EReal) :
    (⟨2, ![50000, 128]⟩ : Shape).Idx → EReal :=
  fun i => Ideal.tanh (dense X W i + b (ix2 (0 : Fin 1) (i 1)) + A i)

/-- The output layer: every node's features times the [128, 32] weight, plus the bias row. -/
def readout (X : (⟨2, ![50000, 128]⟩ : Shape).Idx → EReal) (W : (⟨2, ![128, 32]⟩ : Shape).Idx → EReal)
    (b : (⟨2, ![1, 32]⟩ : Shape).Idx → EReal) : (⟨2, ![50000, 32]⟩ : Shape).Idx → EReal :=
  fun i => (∑ k : Fin 128, X (ix2 (i 0) k) * W (ix2 k (i 1))) + b (ix2 (0 : Fin 1) (i 1))

end Cert.Mpnn

end
-- ==== Proof.RegionLinear.lean ====
/-
  The three linear-message calls, as whole arrays.

  Each call walks ten grid points; point t stages rows 5000 t … 5000 t + 4999 of the node features and the whole
  [128, 128] weight, and writes rows 5000 t … 5000 t + 4999 of the output.  What it writes is, at row r and column c
  of the block, the sum over k of x[r, k] * w[k, c]; read through the block's position this is the value at row
  5000 t + r of ONE function of the whole arrays, the linear message `dense`.  The ten blocks cover all 50000
  rows, so after the call the output array IS `dense` of the arrays the call found -- whatever those contents are.
-/
import proofs.«158552_j34832184771009_1_alg».proof.Proof.KernelIdealFrameP
import proofs.«158552_j34832184771009_1_alg».proof.Proof.Payloads
import proofs.«158552_j34832184771009_1_alg».proof.Proof.Layers
import Idealize.ShloMosaic.Lib.Pipeline.Value

set_option maxRecDepth 16384

noncomputable section

open scoped BigOperators

namespace Cert.Mpnn

open Idealize.ShloMosaic Idealize.ShloMosaic.TcCoe Idealize.ShloMosaic.ValueIdx Idealize.SL.Sem
open Cert.KernelIdeal Cert.KernelIdeal.Gen Cert.KernelIdeal.GenP

-- the buffer contents when a call is entered: every statement below holds for any such contents
variable (V : (c : Dev nD) → (b : Ref sig .tc) → Buf (Elt Ideal) ((c : Thread nD τ).loc b))

/-! ## The first call: rows of `main_arg0` times `main_v5` into `main_v7` -/

/-- The call's index maps over its ten grid points: the row block of the input moves with the output's, the weight
    stays, and column blocks are all zero. -/
theorem idx0 : ∀ t : Fin cfg0.N, win0_0.index t (0 : Fin 2) = win0_2.index t (0 : Fin 2) ∧ win0_0.index t (1 : Fin 2) = 0
    ∧ win0_1.index t (0 : Fin 2) = 0 ∧ win0_1.index t (1 : Fin 2) = 0 ∧ win0_2.index t (1 : Fin 2) = 0 ∧ win0_2.index t (0 : Fin 2) ≤ 9 :=
  (by decide +kernel : ∀ t : Fin grid0.N, _)

/-- Every one of the ten row blocks of the output is some point's. -/
theorem onto0 : ∀ q0 : Fin 10, ∃ t : Fin cfg0.N, win0_2.index t = ![q0.val, 0] :=
  (by decide +kernel : ∀ q0 : Fin 10, ∃ t : Fin grid0.N, win0_2.index t = ![q0.val, 0])

/-- What point t writes back is block t of the product of the whole arrays: row r of the block is row
    5000 * (block index) + r of the array, and the product's sum at that row reads the same row of the input. -/
theorem flushed0 (c : Dev nD) (t : Fin cfg0.N) :
    (dat0 V c).flushed 2 t = ((cfg0.win 2).blk t).view.read (Elt Ideal) (dense (V c main_arg0) (V c main_v5)) := by
  show (cfg0.win 2).cut (grid0.coords t) ((dat0 V c).after 2 t) = _
  rw [after0_2]
  unfold out0_2
  rw [View.canon_unit_zero origin2]
  simp only [View.ld_unit_zero (S := S5000x128) origin2, View.ld_unit_zero (S := S128x128) origin2]
  obtain ⟨e0, e1, e2, e3, e4, e5⟩ := idx0 t
  funext j
  show k0_pay1 (iblk0 V c 0 t) (iblk0 V c 1 t) j = dense (V c main_arg0) (V c main_v5) (((cfg0.win 2).blk t).view.emb j)
  refine (linear0_at (iblk0 V c 0 t) (iblk0 V c 1 t) j).trans ?_
  unfold dense
  refine Finset.sum_congr rfl fun k _ => ?_
  have hx : iblk0 V c 0 t (ix2 (j 0) k) = V c main_arg0 (ix2 ((((cfg0.win 2).blk t).view.emb j) 0) k) := by
    show V c main_arg0 (((cfg0.win 0).blk t).view.emb (ix2 (j 0) k)) = _
    refine congrArg (V c main_arg0) (funext fun a => Fin.ext ?_)
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 128 + 1 * k.val = k.val; omega
  have hw : iblk0 V c 1 t (ix2 k (j 1)) = V c main_v5 (ix2 k ((((cfg0.win 2).blk t).view.emb j) 1)) := by
    show V c main_v5 (((cfg0.win 1).blk t).view.emb (ix2 k (j 1))) = _
    refine congrArg (V c main_v5) (funext fun a => Fin.ext ?_)
    match a with
    | ⟨0, _⟩ => show win0_1.index t (0 : Fin 2) * 128 + 1 * k.val = k.val; omega
    | ⟨1, _⟩ => show win0_1.index t (1 : Fin 2) * 128 + 1 * (j 1).val = win0_2.index t (1 : Fin 2) * 128 + 1 * (j 1).val; omega
  rw [hx, hw]

/-- An index of the output array is in point t's block iff each coordinate is in the block's range on its axis. -/
theorem mem_blk0 (t : Fin cfg0.N) (i : S50000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v7).slice (win0_2.rect t)).set ↔ _
  rw [View.set_slice_whole, Rect.mem_set_unit]
  exact Iff.rfl

/-- The ten blocks of 5000 rows cover the 50000 rows: row n lies in block n / 5000. -/
theorem cover0 (i : S50000x128.Idx) : ∃ t : Fin cfg0.N, (cfg0.win 2).flush t = true ∧ i ∈ ((cfg0.win 2).blk t).view.set := by
  have hi0 : (i 0).val < 50000 := (i 0).isLt
  have hi1 : (i 1).val < 128 := (i 1).isLt
  obtain ⟨t, ht⟩ := onto0 ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_blk0]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- After the call the output array holds the linear message of the arrays the call found. -/
theorem dense0 (c : Dev nD) : (dat0 V c).arrAt 2 cfg0.N = dense (V c main_arg0) (V c main_v5) :=
  (dat0 V c).arrAt_eq_of_cover 2 _ (fun t _ => flushed0 V c t) cover0

/-! ## The third call: rows of `main_v21` times `main_v22` into `main_v24` -/

/-- The call's index maps over its ten grid points: the row block of the input moves with the output's, the weight
    stays, and column blocks are all zero. -/
theorem idx2 : ∀ t : Fin cfg2.N, win2_0.index t (0 : Fin 2) = win2_2.index t (0 : Fin 2) ∧ win2_0.index t (1 : Fin 2) = 0
    ∧ win2_1.index t (0 : Fin 2) = 0 ∧ win2_1.index t (1 : Fin 2) = 0 ∧ win2_2.index t (1 : Fin 2) = 0 ∧ win2_2.index t (0 : Fin 2) ≤ 9 :=
  (by decide +kernel : ∀ t : Fin grid2.N, _)

/-- Every one of the ten row blocks of the output is some point's. -/
theorem onto2 : ∀ q0 : Fin 10, ∃ t : Fin cfg2.N, win2_2.index t = ![q0.val, 0] :=
  (by decide +kernel : ∀ q0 : Fin 10, ∃ t : Fin grid2.N, win2_2.index t = ![q0.val, 0])

/-- What point t writes back is block t of the product of the whole arrays: row r of the block is row
    5000 * (block index) + r of the array, and the product's sum at that row reads the same row of the input. -/
theorem flushed2 (c : Dev nD) (t : Fin cfg2.N) :
    (dat2 V c).flushed 2 t = ((cfg2.win 2).blk t).view.read (Elt Ideal) (dense (V c main_v21) (V c main_v22)) := by
  show (cfg2.win 2).cut (grid2.coords t) ((dat2 V c).after 2 t) = _
  rw [after2_2]
  unfold out2_2
  rw [View.canon_unit_zero origin2]
  simp only [View.ld_unit_zero (S := S5000x128) origin2, View.ld_unit_zero (S := S128x128) origin2]
  obtain ⟨e0, e1, e2, e3, e4, e5⟩ := idx2 t
  funext j
  show k2_pay1 (iblk2 V c 0 t) (iblk2 V c 1 t) j = dense (V c main_v21) (V c main_v22) (((cfg2.win 2).blk t).view.emb j)
  refine (linear2_at (iblk2 V c 0 t) (iblk2 V c 1 t) j).trans ?_
  unfold dense
  refine Finset.sum_congr rfl fun k _ => ?_
  have hx : iblk2 V c 0 t (ix2 (j 0) k) = V c main_v21 (ix2 ((((cfg2.win 2).blk t).view.emb j) 0) k) := by
    show V c main_v21 (((cfg2.win 0).blk t).view.emb (ix2 (j 0) k)) = _
    refine congrArg (V c main_v21) (funext fun a => Fin.ext ?_)
    match a with
    | ⟨0, _⟩ => show win2_0.index t (0 : Fin 2) * 5000 + 1 * (j 0).val = win2_2.index t (0 : Fin 2) * 5000 + 1 * (j 0).val; omega
    | ⟨1, _⟩ => show win2_0.index t (1 : Fin 2) * 128 + 1 * k.val = k.val; omega
  have hw : iblk2 V c 1 t (ix2 k (j 1)) = V c main_v22 (ix2 k ((((cfg2.win 2).blk t).view.emb j) 1)) := by
    show V c main_v22 (((cfg2.win 1).blk t).view.emb (ix2 k (j 1))) = _
    refine congrArg (V c main_v22) (funext fun a => Fin.ext ?_)
    match a with
    | ⟨0, _⟩ => show win2_1.index t (0 : Fin 2) * 128 + 1 * k.val = k.val; omega
    | ⟨1, _⟩ => show win2_1.index t (1 : Fin 2) * 128 + 1 * (j 1).val = win2_2.index t (1 : Fin 2) * 128 + 1 * (j 1).val; omega
  rw [hx, hw]

/-- An index of the output array is in point t's block iff each coordinate is in the block's range on its axis. -/
theorem mem_blk2 (t : Fin cfg2.N) (i : S50000x128.Idx) :
    i ∈ ((cfg2.win 2).blk t).view.set ↔ ∀ a : Fin 2, win2_2.index t a * S5000x128.size a ≤ (i a).val ∧ (i a).val < win2_2.index t a * S5000x128.size a + S5000x128.size a := by
  show i ∈ ((View.whole main_v24).slice (win2_2.rect t)).set ↔ _
  rw [View.set_slice_whole, Rect.mem_set_unit]
  exact Iff.rfl

/-- The ten blocks of 5000 rows cover the 50000 rows: row n lies in block n / 5000. -/
theorem cover2 (i : S50000x128.Idx) : ∃ t : Fin cfg2.N, (cfg2.win 2).flush t = true ∧ i ∈ ((cfg2.win 2).blk t).view.set := by
  have hi0 : (i 0).val < 50000 := (i 0).isLt
  have hi1 : (i 1).val < 128 := (i 1).isLt
  obtain ⟨t, ht⟩ := onto2 ⟨(i 0).val / 5000, by omega⟩
  have q0 : win2_2.index t (0 : Fin 2) = (i 0).val / 5000 := congrFun ht 0
  have q1 : win2_2.index t (1 : Fin 2) = 0 := congrFun ht 1
  refine ⟨t, flush2_2 t, ?_⟩
  rw [mem_blk2]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 128 ≤ (i 1).val ∧ (i 1).val < win2_2.index t (1 : Fin 2) * 128 + 128; omega

/-- After the call the output array holds the linear message of the arrays the call found. -/
theorem dense2 (c : Dev nD) : (dat2 V c).arrAt 2 cfg2.N = dense (V c main_v21) (V c main_v22) :=
  (dat2 V c).arrAt_eq_of_cover 2 _ (fun t _ => flushed2 V c t) cover2

/-! ## The fifth call: rows of `main_v38` times `main_v39` into `main_v41` -/

/-- The call's index maps over its ten grid points: the row block of the input moves with the output's, the weight
    stays, and column blocks are all zero. -/
theorem idx4 : ∀ t : Fin cfg4.N, win4_0.index t (0 : Fin 2) = win4_2.index t (0 : Fin 2) ∧ win4_0.index t (1 : Fin 2) = 0
    ∧ win4_1.index t (0 : Fin 2) = 0 ∧ win4_1.index t (1 : Fin 2) = 0 ∧ win4_2.index t (1 : Fin 2) = 0 ∧ win4_2.index t (0 : Fin 2) ≤ 9 :=
  (by decide +kernel : ∀ t : Fin grid4.N, _)

/-- Every one of the ten row blocks of the output is some point's. -/
theorem onto4 : ∀ q0 : Fin 10, ∃ t : Fin cfg4.N, win4_2.index t = ![q0.val, 0] :=
  (by decide +kernel : ∀ q0 : Fin 10, ∃ t : Fin grid4.N, win4_2.index t = ![q0.val, 0])

/-- What point t writes back is block t of the product of the whole arrays: row r of the block is row
    5000 * (block index) + r of the array, and the product's sum at that row reads the same row of the input. -/
theorem flushed4 (c : Dev nD) (t : Fin cfg4.N) :
    (dat4 V c).flushed 2 t = ((cfg4.win 2).blk t).view.read (Elt Ideal) (dense (V c main_v38) (V c main_v39)) := by
  show (cfg4.win 2).cut (grid4.coords t) ((dat4 V c).after 2 t) = _
  rw [after4_2]
  unfold out4_2
  rw [View.canon_unit_zero origin2]
  simp only [View.ld_unit_zero (S := S5000x128) origin2, View.ld_unit_zero (S := S128x128) origin2]
  obtain ⟨e0, e1, e2, e3, e4, e5⟩ := idx4 t
  funext j
  show k4_pay1 (iblk4 V c 0 t) (iblk4 V c 1 t) j = dense (V c main_v38) (V c main_v39) (((cfg4.win 2).blk t).view.emb j)
  refine (linear4_at (iblk4 V c 0 t) (iblk4 V c 1 t) j).trans ?_
  unfold dense
  refine Finset.sum_congr rfl fun k _ => ?_
  have hx : iblk4 V c 0 t (ix2 (j 0) k) = V c main_v38 (ix2 ((((cfg4.win 2).blk t).view.emb j) 0) k) := by
    show V c main_v38 (((cfg4.win 0).blk t).view.emb (ix2 (j 0) k)) = _
    refine congrArg (V c main_v38) (funext fun a => Fin.ext ?_)
    match a with
    | ⟨0, _⟩ => show win4_0.index t (0 : Fin 2) * 5000 + 1 * (j 0).val = win4_2.index t (0 : Fin 2) * 5000 + 1 * (j 0).val; omega
    | ⟨1, _⟩ => show win4_0.index t (1 : Fin 2) * 128 + 1 * k.val = k.val; omega
  have hw : iblk4 V c 1 t (ix2 k (j 1)) = V c main_v39 (ix2 k ((((cfg4.win 2).blk t).view.emb j) 1)) := by
    show V c main_v39 (((cfg4.win 1).blk t).view.emb (ix2 k (j 1))) = _
    refine congrArg (V c main_v39) (funext fun a => Fin.ext ?_)
    match a with
    | ⟨0, _⟩ => show win4_1.index t (0 : Fin 2) * 128 + 1 * k.val = k.val; omega
    | ⟨1, _⟩ => show win4_1.index t (1 : Fin 2) * 128 + 1 * (j 1).val = win4_2.index t (1 : Fin 2) * 128 + 1 * (j 1).val; omega
  rw [hx, hw]

/-- An index of the output array is in point t's block iff each coordinate is in the block's range on its axis. -/
theorem mem_blk4 (t : Fin cfg4.N) (i : S50000x128.Idx) :
    i ∈ ((cfg4.win 2).blk t).view.set ↔ ∀ a : Fin 2, win4_2.index t a * S5000x128.size a ≤ (i a).val ∧ (i a).val < win4_2.index t a * S5000x128.size a + S5000x128.size a := by
  show i ∈ ((View.whole main_v41).slice (win4_2.rect t)).set ↔ _
  rw [View.set_slice_whole, Rect.mem_set_unit]
  exact Iff.rfl

/-- The ten blocks of 5000 rows cover the 50000 rows: row n lies in block n / 5000. -/
theorem cover4 (i : S50000x128.Idx) : ∃ t : Fin cfg4.N, (cfg4.win 2).flush t = true ∧ i ∈ ((cfg4.win 2).blk t).view.set := by
  have hi0 : (i 0).val < 50000 := (i 0).isLt
  have hi1 : (i 1).val < 128 := (i 1).isLt
  obtain ⟨t, ht⟩ := onto4 ⟨(i 0).val / 5000, by omega⟩
  have q0 : win4_2.index t (0 : Fin 2) = (i 0).val / 5000 := congrFun ht 0
  have q1 : win4_2.index t (1 : Fin 2) = 0 := congrFun ht 1
  refine ⟨t, flush4_2 t, ?_⟩
  rw [mem_blk4]
  intro a
  match a with
  | ⟨0, _⟩ => show win4_2.index t (0 : Fin 2) * 5000 ≤ (i 0).val ∧ (i 0).val < win4_2.index t (0 : Fin 2) * 5000 + 5000; omega
  | ⟨1, _⟩ => show win4_2.index t (1 : Fin 2) * 128 ≤ (i 1).val ∧ (i 1).val < win4_2.index t (1 : Fin 2) * 128 + 128; omega

/-- After the call the output array holds the linear message of the arrays the call found. -/
theorem dense4 (c : Dev nD) : (dat4 V c).arrAt 2 cfg4.N = dense (V c main_v38) (V c main_v39) :=
  (dat4 V c).arrAt_eq_of_cover 2 _ (fun t _ => flushed4 V c t) cover4

end Cert.Mpnn

end
-- ==== Proof.RegionUpdate.lean ====
/-
  The three node-update calls, as whole arrays.

  Each call walks ten grid points; point t stages rows 5000 t … 5000 t + 4999 of the node features and of the
  aggregated messages, the whole [128, 128] weight and the one bias row, and writes the same rows of the output.
  At row r and column c of the block it writes  tanh ( (sum over k of x[r, k] * w[k, c]) + b[0, c] + a[r, c] ),
  which is the value at row 5000 t + r of ONE function of the whole arrays, the node update `update`.  The ten
  blocks cover all 50000 rows, so after the call the output array IS `update` of the arrays the call found.
-/
import proofs.«158552_j34832184771009_1_alg».proof.Proof.KernelIdealFrameP
import proofs.«158552_j34832184771009_1_alg».proof.Proof.Payloads
import proofs.«158552_j34832184771009_1_alg».proof.Proof.Layers
import Idealize.ShloMosaic.Lib.Pipeline.Value

set_option maxRecDepth 16384

noncomputable section

open scoped BigOperators

namespace Cert.Mpnn

open Idealize.ShloMosaic Idealize.ShloMosaic.TcCoe Idealize.ShloMosaic.ValueIdx Idealize.SL.Sem
open Cert.KernelIdeal Cert.KernelIdeal.Gen Cert.KernelIdeal.GenP

-- the buffer contents when a call is entered: every statement below holds for any such contents
variable (V : (c : Dev nD) → (b : Ref sig .tc) → Buf (Elt Ideal) ((c : Thread nD τ).loc b))

/-! ## The second call: `main_v21` from the features `main_arg0`, the weight `main_v6`, the bias row `main_v20` and the aggregate `main_v19` -/

/-- The call's index maps over its ten grid points: the row blocks of the features and of the aggregate move with
    the output's, the weight and the bias row stay, and column blocks are all zero. -/
theorem idx1 : ∀ t : Fin cfg1.N, win1_0.index t (0 : Fin 2) = win1_4.index t (0 : Fin 2) ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = win1_4.index t (0 : Fin 2) ∧ win1_3.index t (1 : Fin 2) = 0
    ∧ win1_4.index t (1 : Fin 2) = 0 ∧ win1_4.index t (0 : Fin 2) ≤ 9 :=
  (by decide +kernel : ∀ t : Fin grid1.N, _)

/-- Every one of the ten row blocks of the output is some point's. -/
theorem onto1 : ∀ q0 : Fin 10, ∃ t : Fin cfg1.N, win1_4.index t = ![q0.val, 0] :=
  (by decide +kernel : ∀ q0 : Fin 10, ∃ t : Fin grid1.N, win1_4.index t = ![q0.val, 0])

/-- What point t writes back is block t of the node update of the whole arrays: the product's sum, the bias and the
    aggregate are each read at the array row the block's row stands for. -/
theorem flushed1 (c : Dev nD) (t : Fin cfg1.N) :
    (dat1 V c).flushed 4 t = ((cfg1.win 4).blk t).view.read (Elt Ideal) (update (V c main_arg0) (V c main_v6) (V c main_v20) (V c main_v19)) := by
  show (cfg1.win 4).cut (grid1.coords t) ((dat1 V c).after 4 t) = _
  rw [after1_4]
  unfold out1_4
  rw [View.canon_unit_zero origin2]
  simp only [View.ld_unit_zero (S := S5000x128) origin2, View.ld_unit_zero (S := S128x128) origin2, View.ld_unit_zero (S := S1x128) origin2]
  obtain ⟨e0, e1, e2, e3, e4, e5, e6, e7, e8, e9⟩ := idx1 t
  funext j
  show k1_pay1 (iblk1 V c 0 t) (iblk1 V c 1 t) (iblk1 V c 2 t) (iblk1 V c 3 t) j
    = update (V c main_arg0) (V c main_v6) (V c main_v20) (V c main_v19) (((cfg1.win 4).blk t).view.emb j)
  refine (update1_at (iblk1 V c 0 t) (iblk1 V c 1 t) (iblk1 V c 2 t) (iblk1 V c 3 t) j).trans ?_
  have hx : ∀ k : Fin 128, iblk1 V c 0 t (ix2 (j 0) k) = V c main_arg0 (ix2 ((((cfg1.win 4).blk t).view.emb j) 0) k) := fun k => by
    show V c main_arg0 (((cfg1.win 0).blk t).view.emb (ix2 (j 0) k)) = _
    refine congrArg (V c main_arg0) (funext fun a => Fin.ext ?_)
    match a with
    | ⟨0, _⟩ => show win1_0.index t (0 : Fin 2) * 5000 + 1 * (j 0).val = win1_4.index t (0 : Fin 2) * 5000 + 1 * (j 0).val; omega
    | ⟨1, _⟩ => show win1_0.index t (1 : Fin 2) * 128 + 1 * k.val = k.val; omega
  have hw : ∀ k : Fin 128, iblk1 V c 1 t (ix2 k (j 1)) = V c main_v6 (ix2 k ((((cfg1.win 4).blk t).view.emb j) 1)) := fun k => by
    show V c main_v6 (((cfg1.win 1).blk t).view.emb (ix2 k (j 1))) = _
    refine congrArg (V c main_v6) (funext fun a => Fin.ext ?_)
    match a with
    | ⟨0, _⟩ => show win1_1.index t (0 : Fin 2) * 128 + 1 * k.val = k.val; omega
    | ⟨1, _⟩ => show win1_1.index t (1 : Fin 2) * 128 + 1 * (j 1).val = win1_4.index t (1 : Fin 2) * 128 + 1 * (j 1).val; omega
  have hb : iblk1 V c 2 t (ix2 (0 : Fin 1) (j 1)) = V c main_v20 (ix2 (0 : Fin 1) ((((cfg1.win 4).blk t).view.emb j) 1)) := by
    show V c main_v20 (((cfg1.win 2).blk t).view.emb (ix2 (0 : Fin 1) (j 1))) = _
    refine congrArg (V c main_v20) (funext fun a => Fin.ext ?_)
    match a with
    | ⟨0, _⟩ => show win1_2.index t (0 : Fin 2) * 1 + 1 * 0 = 0; omega
    | ⟨1, _⟩ => show win1_2.index t (1 : Fin 2) * 128 + 1 * (j 1).val = win1_4.index t (1 : Fin 2) * 128 + 1 * (j 1).val; omega
  have ha : iblk1 V c 3 t j = V c main_v19 (((cfg1.win 4).blk t).view.emb j) := by
    show V c main_v19 (((cfg1.win 3).blk t).view.emb j) = _
    refine congrArg (V c main_v19) (funext fun a => Fin.ext ?_)
    match a with
    | ⟨0, _⟩ => show win1_3.index t (0 : Fin 2) * 5000 + 1 * (j 0).val = win1_4.index t (0 : Fin 2) * 5000 + 1 * (j 0).val; omega
    | ⟨1, _⟩ => show win1_3.index t (1 : Fin 2) * 128 + 1 * (j 1).val = win1_4.index t (1 : Fin 2) * 128 + 1 * (j 1).val; omega
  simp only [hx, hw, hb, ha]
  rfl

/-- An index of the output array is in point t's block iff each coordinate is in the block's range on its axis. -/
theorem mem_blk1 (t : Fin cfg1.N) (i : S50000x128.Idx) :
    i ∈ ((cfg1.win 4).blk t).view.set ↔ ∀ a : Fin 2, win1_4.index t a * S5000x128.size a ≤ (i a).val ∧ (i a).val < win1_4.index t a * S5000x128.size a + S5000x128.size a := by
  show i ∈ ((View.whole main_v21).slice (win1_4.rect t)).set ↔ _
  rw [View.set_slice_whole, Rect.mem_set_unit]
  exact Iff.rfl

/-- The ten blocks of 5000 rows cover the 50000 rows: row n lies in block n / 5000. -/
theorem cover1 (i : S50000x128.Idx) : ∃ t : Fin cfg1.N, (cfg1.win 4).flush t = true ∧ i ∈ ((cfg1.win 4).blk t).view.set := by
  have hi0 : (i 0).val < 50000 := (i 0).isLt
  have hi1 : (i 1).val < 128 := (i 1).isLt
  obtain ⟨t, ht⟩ := onto1 ⟨(i 0).val / 5000, by omega⟩
  have q0 : win1_4.index t (0 : Fin 2) = (i 0).val / 5000 := congrFun ht 0
  have q1 : win1_4.index t (1 : Fin 2) = 0 := congrFun ht 1
  refine ⟨t, flush1_4 t, ?_⟩
  rw [mem_blk1]
  intro a
  match a with
  | ⟨0, _⟩ => show win1_4.index t (0 : Fin 2) * 5000 ≤ (i 0).val ∧ (i 0).val < win1_4.index t (0 : Fin 2) * 5000 + 5000; omega
  | ⟨1, _⟩ => show win1_4.index t (1 : Fin 2) * 128 ≤ (i 1).val ∧ (i 1).val < win1_4.index t (1 : Fin 2) * 128 + 128; omega

/-- After the call the output array holds the node update of the arrays the call found. -/
theorem update1 (c : Dev nD) : (dat1 V c).arrAt 4 cfg1.N = update (V c main_arg0) (V c main_v6) (V c main_v20) (V c main_v19) :=
  (dat1 V c).arrAt_eq_of_cover 4 _ (fun t _ => flushed1 V c t) cover1

/-! ## The fourth call: `main_v38` from the features `main_v21`, the weight `main_v23`, the bias row `main_v37` and the aggregate `main_v36` -/

/-- The call's index maps over its ten grid points: the row blocks of the features and of the aggregate move with
    the output's, the weight and the bias row stay, and column blocks are all zero. -/
theorem idx3 : ∀ t : Fin cfg3.N, win3_0.index t (0 : Fin 2) = win3_4.index t (0 : Fin 2) ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = win3_4.index t (0 : Fin 2) ∧ win3_3.index t (1 : Fin 2) = 0
    ∧ win3_4.index t (1 : Fin 2) = 0 ∧ win3_4.index t (0 : Fin 2) ≤ 9 :=
  (by decide +kernel : ∀ t : Fin grid3.N, _)

/-- Every one of the ten row blocks of the output is some point's. -/
theorem onto3 : ∀ q0 : Fin 10, ∃ t : Fin cfg3.N, win3_4.index t = ![q0.val, 0] :=
  (by decide +kernel : ∀ q0 : Fin 10, ∃ t : Fin grid3.N, win3_4.index t = ![q0.val, 0])

/-- What point t writes back is block t of the node update of the whole arrays: the product's sum, the bias and the
    aggregate are each read at the array row the block's row stands for. -/
theorem flushed3 (c : Dev nD) (t : Fin cfg3.N) :
    (dat3 V c).flushed 4 t = ((cfg3.win 4).blk t).view.read (Elt Ideal) (update (V c main_v21) (V c main_v23) (V c main_v37) (V c main_v36)) := by
  show (cfg3.win 4).cut (grid3.coords t) ((dat3 V c).after 4 t) = _
  rw [after3_4]
  unfold out3_4
  rw [View.canon_unit_zero origin2]
  simp only [View.ld_unit_zero (S := S5000x128) origin2, View.ld_unit_zero (S := S128x128) origin2, View.ld_unit_zero (S := S1x128) origin2]
  obtain ⟨e0, e1, e2, e3, e4, e5, e6, e7, e8, e9⟩ := idx3 t
  funext j
  show k3_pay1 (iblk3 V c 0 t) (iblk3 V c 1 t) (iblk3 V c 2 t) (iblk3 V c 3 t) j
    = update (V c main_v21) (V c main_v23) (V c main_v37) (V c main_v36) (((cfg3.win 4).blk t).view.emb j)
  refine (update3_at (iblk3 V c 0 t) (iblk3 V c 1 t) (iblk3 V c 2 t) (iblk3 V c 3 t) j).trans ?_
  have hx : ∀ k : Fin 128, iblk3 V c 0 t (ix2 (j 0) k) = V c main_v21 (ix2 ((((cfg3.win 4).blk t).view.emb j) 0) k) := fun k => by
    show V c main_v21 (((cfg3.win 0).blk t).view.emb (ix2 (j 0) k)) = _
    refine congrArg (V c main_v21) (funext fun a => Fin.ext ?_)
    match a with
    | ⟨0, _⟩ => show win3_0.index t (0 : Fin 2) * 5000 + 1 * (j 0).val = win3_4.index t (0 : Fin 2) * 5000 + 1 * (j 0).val; omega
    | ⟨1, _⟩ => show win3_0.index t (1 : Fin 2) * 128 + 1 * k.val = k.val; omega
  have hw : ∀ k : Fin 128, iblk3 V c 1 t (ix2 k (j 1)) = V c main_v23 (ix2 k ((((cfg3.win 4).blk t).view.emb j) 1)) := fun k => by
    show V c main_v23 (((cfg3.win 1).blk t).view.emb (ix2 k (j 1))) = _
    refine congrArg (V c main_v23) (funext fun a => Fin.ext ?_)
    match a with
    | ⟨0, _⟩ => show win3_1.index t (0 : Fin 2) * 128 + 1 * k.val = k.val; omega
    | ⟨1, _⟩ => show win3_1.index t (1 : Fin 2) * 128 + 1 * (j 1).val = win3_4.index t (1 : Fin 2) * 128 + 1 * (j 1).val; omega
  have hb : iblk3 V c 2 t (ix2 (0 : Fin 1) (j 1)) = V c main_v37 (ix2 (0 : Fin 1) ((((cfg3.win 4).blk t).view.emb j) 1)) := by
    show V c main_v37 (((cfg3.win 2).blk t).view.emb (ix2 (0 : Fin 1) (j 1))) = _
    refine congrArg (V c main_v37) (funext fun a => Fin.ext ?_)
    match a with
    | ⟨0, _⟩ => show win3_2.index t (0 : Fin 2) * 1 + 1 * 0 = 0; omega
    | ⟨1, _⟩ => show win3_2.index t (1 : Fin 2) * 128 + 1 * (j 1).val = win3_4.index t (1 : Fin 2) * 128 + 1 * (j 1).val; omega
  have ha : iblk3 V c 3 t j = V c main_v36 (((cfg3.win 4).blk t).view.emb j) := by
    show V c main_v36 (((cfg3.win 3).blk t).view.emb j) = _
    refine congrArg (V c main_v36) (funext fun a => Fin.ext ?_)
    match a with
    | ⟨0, _⟩ => show win3_3.index t (0 : Fin 2) * 5000 + 1 * (j 0).val = win3_4.index t (0 : Fin 2) * 5000 + 1 * (j 0).val; omega
    | ⟨1, _⟩ => show win3_3.index t (1 : Fin 2) * 128 + 1 * (j 1).val = win3_4.index t (1 : Fin 2) * 128 + 1 * (j 1).val; omega
  simp only [hx, hw, hb, ha]
  rfl

/-- An index of the output array is in point t's block iff each coordinate is in the block's range on its axis. -/
theorem mem_blk3 (t : Fin cfg3.N) (i : S50000x128.Idx) :
    i ∈ ((cfg3.win 4).blk t).view.set ↔ ∀ a : Fin 2, win3_4.index t a * S5000x128.size a ≤ (i a).val ∧ (i a).val < win3_4.index t a * S5000x128.size a + S5000x128.size a := by
  show i ∈ ((View.whole main_v38).slice (win3_4.rect t)).set ↔ _
  rw [View.set_slice_whole, Rect.mem_set_unit]
  exact Iff.rfl

/-- The ten blocks of 5000 rows cover the 50000 rows: row n lies in block n / 5000. -/
theorem cover3 (i : S50000x128.Idx) : ∃ t : Fin cfg3.N, (cfg3.win 4).flush t = true ∧ i ∈ ((cfg3.win 4).blk t).view.set := by
  have hi0 : (i 0).val < 50000 := (i 0).isLt
  have hi1 : (i 1).val < 128 := (i 1).isLt
  obtain ⟨t, ht⟩ := onto3 ⟨(i 0).val / 5000, by omega⟩
  have q0 : win3_4.index t (0 : Fin 2) = (i 0).val / 5000 := congrFun ht 0
  have q1 : win3_4.index t (1 : Fin 2) = 0 := congrFun ht 1
  refine ⟨t, flush3_4 t, ?_⟩
  rw [mem_blk3]
  intro a
  match a with
  | ⟨0, _⟩ => show win3_4.index t (0 : Fin 2) * 5000 ≤ (i 0).val ∧ (i 0).val < win3_4.index t (0 : Fin 2) * 5000 + 5000; omega
  | ⟨1, _⟩ => show win3_4.index t (1 : Fin 2) * 128 ≤ (i 1).val ∧ (i 1).val < win3_4.index t (1 : Fin 2) * 128 + 128; omega

/-- After the call the output array holds the node update of the arrays the call found. -/
theorem update3 (c : Dev nD) : (dat3 V c).arrAt 4 cfg3.N = update (V c main_v21) (V c main_v23) (V c main_v37) (V c main_v36) :=
  (dat3 V c).arrAt_eq_of_cover 4 _ (fun t _ => flushed3 V c t) cover3

/-! ## The sixth call: `main_v55` from the features `main_v38`, the weight `main_v40`, the bias row `main_v54` and the aggregate `main_v53` -/

/-- The call's index maps over its ten grid points: the row blocks of the features and of the aggregate move with
    the output's, the weight and the bias row stay, and column blocks are all zero. -/
theorem idx5 : ∀ t : Fin cfg5.N, win5_0.index t (0 : Fin 2) = win5_4.index t (0 : Fin 2) ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = win5_4.index t (0 : Fin 2) ∧ win5_3.index t (1 : Fin 2) = 0
    ∧ win5_4.index t (1 : Fin 2) = 0 ∧ win5_4.index t (0 : Fin 2) ≤ 9 :=
  (by decide +kernel : ∀ t : Fin grid5.N, _)

/-- Every one of the ten row blocks of the output is some point's. -/
theorem onto5 : ∀ q0 : Fin 10, ∃ t : Fin cfg5.N, win5_4.index t = ![q0.val, 0] :=
  (by decide +kernel : ∀ q0 : Fin 10, ∃ t : Fin grid5.N, win5_4.index t = ![q0.val, 0])

/-- What point t writes back is block t of the node update of the whole arrays: the product's sum, the bias and the
    aggregate are each read at the array row the block's row stands for. -/
theorem flushed5 (c : Dev nD) (t : Fin cfg5.N) :
    (dat5 V c).flushed 4 t = ((cfg5.win 4).blk t).view.read (Elt Ideal) (update (V c main_v38) (V c main_v40) (V c main_v54) (V c main_v53)) := by
  show (cfg5.win 4).cut (grid5.coords t) ((dat5 V c).after 4 t) = _
  rw [after5_4]
  unfold out5_4
  rw [View.canon_unit_zero origin2]
  simp only [View.ld_unit_zero (S := S5000x128) origin2, View.ld_unit_zero (S := S128x128) origin2, View.ld_unit_zero (S := S1x128) origin2]
  obtain ⟨e0, e1, e2, e3, e4, e5, e6, e7, e8, e9⟩ := idx5 t
  funext j
  show k5_pay1 (iblk5 V c 0 t) (iblk5 V c 1 t) (iblk5 V c 2 t) (iblk5 V c 3 t) j
    = update (V c main_v38) (V c main_v40) (V c main_v54) (V c main_v53) (((cfg5.win 4).blk t).view.emb j)
  refine (update5_at (iblk5 V c 0 t) (iblk5 V c 1 t) (iblk5 V c 2 t) (iblk5 V c 3 t) j).trans ?_
  have hx : ∀ k : Fin 128, iblk5 V c 0 t (ix2 (j 0) k) = V c main_v38 (ix2 ((((cfg5.win 4).blk t).view.emb j) 0) k) := fun k => by
    show V c main_v38 (((cfg5.win 0).blk t).view.emb (ix2 (j 0) k)) = _
    refine congrArg (V c main_v38) (funext fun a => Fin.ext ?_)
    match a with
    | ⟨0, _⟩ => show win5_0.index t (0 : Fin 2) * 5000 + 1 * (j 0).val = win5_4.index t (0 : Fin 2) * 5000 + 1 * (j 0).val; omega
    | ⟨1, _⟩ => show win5_0.index t (1 : Fin 2) * 128 + 1 * k.val = k.val; omega
  have hw : ∀ k : Fin 128, iblk5 V c 1 t (ix2 k (j 1)) = V c main_v40 (ix2 k ((((cfg5.win 4).blk t).view.emb j) 1)) := fun k => by
    show V c main_v40 (((cfg5.win 1).blk t).view.emb (ix2 k (j 1))) = _
    refine congrArg (V c main_v40) (funext fun a => Fin.ext ?_)
    match a with
    | ⟨0, _⟩ => show win5_1.index t (0 : Fin 2) * 128 + 1 * k.val = k.val; omega
    | ⟨1, _⟩ => show win5_1.index t (1 : Fin 2) * 128 + 1 * (j 1).val = win5_4.index t (1 : Fin 2) * 128 + 1 * (j 1).val; omega
  have hb : iblk5 V c 2 t (ix2 (0 : Fin 1) (j 1)) = V c main_v54 (ix2 (0 : Fin 1) ((((cfg5.win 4).blk t).view.emb j) 1)) := by
    show V c main_v54 (((cfg5.win 2).blk t).view.emb (ix2 (0 : Fin 1) (j 1))) = _
    refine congrArg (V c main_v54) (funext fun a => Fin.ext ?_)
    match a with
    | ⟨0, _⟩ => show win5_2.index t (0 : Fin 2) * 1 + 1 * 0 = 0; omega
    | ⟨1, _⟩ => show win5_2.index t (1 : Fin 2) * 128 + 1 * (j 1).val = win5_4.index t (1 : Fin 2) * 128 + 1 * (j 1).val; omega
  have ha : iblk5 V c 3 t j = V c main_v53 (((cfg5.win 4).blk t).view.emb j) := by
    show V c main_v53 (((cfg5.win 3).blk t).view.emb j) = _
    refine congrArg (V c main_v53) (funext fun a => Fin.ext ?_)
    match a with
    | ⟨0, _⟩ => show win5_3.index t (0 : Fin 2) * 5000 + 1 * (j 0).val = win5_4.index t (0 : Fin 2) * 5000 + 1 * (j 0).val; omega
    | ⟨1, _⟩ => show win5_3.index t (1 : Fin 2) * 128 + 1 * (j 1).val = win5_4.index t (1 : Fin 2) * 128 + 1 * (j 1).val; omega
  simp only [hx, hw, hb, ha]
  rfl

/-- An index of the output array is in point t's block iff each coordinate is in the block's range on its axis. -/
theorem mem_blk5 (t : Fin cfg5.N) (i : S50000x128.Idx) :
    i ∈ ((cfg5.win 4).blk t).view.set ↔ ∀ a : Fin 2, win5_4.index t a * S5000x128.size a ≤ (i a).val ∧ (i a).val < win5_4.index t a * S5000x128.size a + S5000x128.size a := by
  show i ∈ ((View.whole main_v55).slice (win5_4.rect t)).set ↔ _
  rw [View.set_slice_whole, Rect.mem_set_unit]
  exact Iff.rfl

/-- The ten blocks of 5000 rows cover the 50000 rows: row n lies in block n / 5000. -/
theorem cover5 (i : S50000x128.Idx) : ∃ t : Fin cfg5.N, (cfg5.win 4).flush t = true ∧ i ∈ ((cfg5.win 4).blk t).view.set := by
  have hi0 : (i 0).val < 50000 := (i 0).isLt
  have hi1 : (i 1).val < 128 := (i 1).isLt
  obtain ⟨t, ht⟩ := onto5 ⟨(i 0).val / 5000, by omega⟩
  have q0 : win5_4.index t (0 : Fin 2) = (i 0).val / 5000 := congrFun ht 0
  have q1 : win5_4.index t (1 : Fin 2) = 0 := congrFun ht 1
  refine ⟨t, flush5_4 t, ?_⟩
  rw [mem_blk5]
  intro a
  match a with
  | ⟨0, _⟩ => show win5_4.index t (0 : Fin 2) * 5000 ≤ (i 0).val ∧ (i 0).val < win5_4.index t (0 : Fin 2) * 5000 + 5000; omega
  | ⟨1, _⟩ => show win5_4.index t (1 : Fin 2) * 128 ≤ (i 1).val ∧ (i 1).val < win5_4.index t (1 : Fin 2) * 128 + 128; omega

/-- After the call the output array holds the node update of the arrays the call found. -/
theorem update5 (c : Dev nD) : (dat5 V c).arrAt 4 cfg5.N = update (V c main_v38) (V c main_v40) (V c main_v54) (V c main_v53) :=
  (dat5 V c).arrAt_eq_of_cover 4 _ (fun t _ => flushed5 V c t) cover5

end Cert.Mpnn

end
-- ==== Proof.RegionReadout.lean ====
/-
  The output-layer call, as a whole array.

  The call walks ten grid points; point t stages rows 5000 t … 5000 t + 4999 of the last layer's node features, the
  whole [128, 32] weight and the one bias row, and writes the same rows of the [50000, 32] result.  At row r and
  column c of the block it writes  (sum over k of x[r, k] * w[k, c]) + b[0, c], the value at row 5000 t + r of ONE
  function of the whole arrays, the output layer `readout`.  The ten blocks cover all 50000 rows, so after the
  call the result array IS `readout` of the arrays the call found.
-/
import proofs.«158552_j34832184771009_1_alg».proof.Proof.KernelIdealFrameP
import proofs.«158552_j34832184771009_1_alg».proof.Proof.Payloads
import proofs.«158552_j34832184771009_1_alg».proof.Proof.Layers
import Idealize.ShloMosaic.Lib.Pipeline.Value

set_option maxRecDepth 16384

noncomputable section

open scoped BigOperators

namespace Cert.Mpnn

open Idealize.ShloMosaic Idealize.ShloMosaic.TcCoe Idealize.ShloMosaic.ValueIdx Idealize.SL.Sem
open Cert.KernelIdeal Cert.KernelIdeal.Gen Cert.KernelIdeal.GenP

-- the buffer contents when a call is entered: every statement below holds for any such contents
variable (V : (c : Dev nD) → (b : Ref sig .tc) → Buf (Elt Ideal) ((c : Thread nD τ).loc b))

/-! ## The seventh call: `main_v58` from the features `main_v55`, the weight `main_v56` and the bias row `main_v57` -/

/-- The call's index maps over its ten grid points: the row block of the features moves with the output's, the weight
    and the bias row stay, and column blocks are all zero. -/
theorem idx6 : ∀ t : Fin cfg6.N, win6_0.index t (0 : Fin 2) = win6_3.index t (0 : Fin 2) ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (1 : Fin 2) = 0 ∧ win6_3.index t (0 : Fin 2) ≤ 9 :=
  (by decide +kernel : ∀ t : Fin grid6.N, _)

/-- Every one of the ten row blocks of the output is some point's. -/
theorem onto6 : ∀ q0 : Fin 10, ∃ t : Fin cfg6.N, win6_3.index t = ![q0.val, 0] :=
  (by decide +kernel : ∀ q0 : Fin 10, ∃ t : Fin grid6.N, win6_3.index t = ![q0.val, 0])

/-- What point t writes back is block t of the output layer of the whole arrays. -/
theorem flushed6 (c : Dev nD) (t : Fin cfg6.N) :
    (dat6 V c).flushed 3 t = ((cfg6.win 3).blk t).view.read (Elt Ideal) (readout (V c main_v55) (V c main_v56) (V c main_v57)) := by
  show (cfg6.win 3).cut (grid6.coords t) ((dat6 V c).after 3 t) = _
  rw [after6_3]
  unfold out6_3
  rw [View.canon_unit_zero origin2]
  simp only [View.ld_unit_zero (S := S5000x128) origin2, View.ld_unit_zero (S := S128x32) origin2, View.ld_unit_zero (S := S1x32) origin2]
  obtain ⟨e0, e1, e2, e3, e4, e5, e6, e7⟩ := idx6 t
  funext j
  show k6_pay1 (iblk6 V c 0 t) (iblk6 V c 1 t) (iblk6 V c 2 t) j
    = readout (V c main_v55) (V c main_v56) (V c main_v57) (((cfg6.win 3).blk t).view.emb j)
  refine (readout6_at (iblk6 V c 0 t) (iblk6 V c 1 t) (iblk6 V c 2 t) j).trans ?_
  have hx : ∀ k : Fin 128, iblk6 V c 0 t (ix2 (j 0) k) = V c main_v55 (ix2 ((((cfg6.win 3).blk t).view.emb j) 0) k) := fun k => by
    show V c main_v55 (((cfg6.win 0).blk t).view.emb (ix2 (j 0) k)) = _
    refine congrArg (V c main_v55) (funext fun a => Fin.ext ?_)
    match a with
    | ⟨0, _⟩ => show win6_0.index t (0 : Fin 2) * 5000 + 1 * (j 0).val = win6_3.index t (0 : Fin 2) * 5000 + 1 * (j 0).val; omega
    | ⟨1, _⟩ => show win6_0.index t (1 : Fin 2) * 128 + 1 * k.val = k.val; omega
  have hw : ∀ k : Fin 128, iblk6 V c 1 t (ix2 k (j 1)) = V c main_v56 (ix2 k ((((cfg6.win 3).blk t).view.emb j) 1)) := fun k => by
    show V c main_v56 (((cfg6.win 1).blk t).view.emb (ix2 k (j 1))) = _
    refine congrArg (V c main_v56) (funext fun a => Fin.ext ?_)
    match a with
    | ⟨0, _⟩ => show win6_1.index t (0 : Fin 2) * 128 + 1 * k.val = k.val; omega
    | ⟨1, _⟩ => show win6_1.index t (1 : Fin 2) * 32 + 1 * (j 1).val = win6_3.index t (1 : Fin 2) * 32 + 1 * (j 1).val; omega
  have hb : iblk6 V c 2 t (ix2 (0 : Fin 1) (j 1)) = V c main_v57 (ix2 (0 : Fin 1) ((((cfg6.win 3).blk t).view.emb j) 1)) := by
    show V c main_v57 (((cfg6.win 2).blk t).view.emb (ix2 (0 : Fin 1) (j 1))) = _
    refine congrArg (V c main_v57) (funext fun a => Fin.ext ?_)
    match a with
    | ⟨0, _⟩ => show win6_2.index t (0 : Fin 2) * 1 + 1 * 0 = 0; omega
    | ⟨1, _⟩ => show win6_2.index t (1 : Fin 2) * 32 + 1 * (j 1).val = win6_3.index t (1 : Fin 2) * 32 + 1 * (j 1).val; omega
  simp only [hx, hw, hb]
  rfl

/-- An index of the output array is in point t's block iff each coordinate is in the block's range on its axis. -/
theorem mem_blk6 (t : Fin cfg6.N) (i : S50000x32.Idx) :
    i ∈ ((cfg6.win 3).blk t).view.set ↔ ∀ a : Fin 2, win6_3.index t a * S5000x32.size a ≤ (i a).val ∧ (i a).val < win6_3.index t a * S5000x32.size a + S5000x32.size a := by
  show i ∈ ((View.whole main_v58).slice (win6_3.rect t)).set ↔ _
  rw [View.set_slice_whole, Rect.mem_set_unit]
  exact Iff.rfl

/-- The ten blocks of 5000 rows cover the 50000 rows: row n lies in block n / 5000. -/
theorem cover6 (i : S50000x32.Idx) : ∃ t : Fin cfg6.N, (cfg6.win 3).flush t = true ∧ i ∈ ((cfg6.win 3).blk t).view.set := by
  have hi0 : (i 0).val < 50000 := (i 0).isLt
  have hi1 : (i 1).val < 32 := (i 1).isLt
  obtain ⟨t, ht⟩ := onto6 ⟨(i 0).val / 5000, by omega⟩
  have q0 : win6_3.index t (0 : Fin 2) = (i 0).val / 5000 := congrFun ht 0
  have q1 : win6_3.index t (1 : Fin 2) = 0 := congrFun ht 1
  refine ⟨t, flush6_3 t, ?_⟩
  rw [mem_blk6]
  intro a
  match a with
  | ⟨0, _⟩ => show win6_3.index t (0 : Fin 2) * 5000 ≤ (i 0).val ∧ (i 0).val < win6_3.index t (0 : Fin 2) * 5000 + 5000; omega
  | ⟨1, _⟩ => show win6_3.index t (1 : Fin 2) * 32 ≤ (i 1).val ∧ (i 1).val < win6_3.index t (1 : Fin 2) * 32 + 32; omega

/-- After the call the result array holds the output layer of the arrays the call found. -/
theorem readout6 (c : Dev nD) : (dat6 V c).arrAt 3 cfg6.N = readout (V c main_v55) (V c main_v56) (V c main_v57) :=
  (dat6 V c).arrAt_eq_of_cover 3 _ (fun t _ => flushed6 V c t) cover6

end Cert.Mpnn

end
-- ==== Proof.HostForms.lean ====
/-
  The reference's dense stages are the three layer functions.

  The reference computes each dense stage of the network with host operations on whole arrays: a dot_general for the
  linear message; dot_general, the bias broadcast to a row and then down the rows, two additions and tanh for the
  node update; dot_general, the broadcast bias and one addition for the output layer.  Read at a node n and a
  column c these are, in this grouping,

      sum over k of X[n, k] * W[k, c]                                  = dense X W [n, c]
      tanh ( (sum over k of X[n, k] * W[k, c]) + b[c] + A[n, c] )      = update X W (b as a row) A [n, c]
      (sum over k of X[n, k] * W[k, c]) + b[c]                         = readout X W (b as a row) [n, c]

  where "b as a row" is the bias vector reshaped to one row -- which is how the kernel passes it: a [128] vector
  reshaped to [1, 128] and the same vector broadcast into a [1, 128] array both hold b[c] at (0, c).
-/
import proofs.«158552_j34832184771009_1_alg».proof.Proof.DotAtIndex
import proofs.«158552_j34832184771009_1_alg».proof.Proof.Layers
import Idealize.ShloMosaic.Lib.Pipeline.Value

noncomputable section

open scoped BigOperators

namespace Cert.Mpnn

open Idealize.ShloMosaic Idealize.ShloMosaic.ValueIdx Cert.ReferenceIdeal

/-- A [128] vector reshaped to one row holds, at (0, c), the vector's entry c. -/
theorem rowOfVector_apply (b : S128.Idx → EReal) (h : S128.ShapeCasts S1x128) (c : Fin 128) :
    shapeCast S1x128 b h (ix2 (0 : Fin 1) c) = b (ix1 c) :=
  shapeCast_apply b h (ix2 (0 : Fin 1) c) (ix1 c) (by
    rw [Shape.rowMajor_val_one, Shape.rowMajor_val_two]
    show c.val = 0 * 128 + c.val
    omega)

/-- A [32] vector reshaped to one row holds, at (0, c), the vector's entry c. -/
theorem rowOfVectorOut_apply (b : S32.Idx → EReal) (h : S32.ShapeCasts S1x32) (c : Fin 32) :
    shapeCast S1x32 b h (ix2 (0 : Fin 1) c) = b (ix1 c) :=
  shapeCast_apply b h (ix2 (0 : Fin 1) c) (ix1 c) (by
    rw [Shape.rowMajor_val_one, Shape.rowMajor_val_two]
    show c.val = 0 * 32 + c.val
    omega)

/-- A [128] vector broadcast to one row and then down the 50000 rows holds, at (n, c), the vector's entry c. -/
theorem biasDown_apply (b : S128.Idx → EReal) (h1 : S1x128.BroadcastsInDim S50000x128 ![0, 1])
    (h2 : S128.BroadcastsInDim S1x128 ![1]) (n : Fin 50000) (c : Fin 128) :
    broadcastInDim S50000x128 ![0, 1] h1 (broadcastInDim S1x128 ![1] h2 b) (ix2 n c) = b (ix1 c) := by
  rw [broadcastInDim_apply ![0, 1] h1 _ (ix2 n c) (ix2 (0 : Fin 1) c) (fun a => by
        match a with
        | ⟨0, _⟩ => rfl
        | ⟨1, _⟩ => rfl),
    broadcastInDim_apply ![1] h2 b (ix2 (0 : Fin 1) c) (ix1 c) (fun a => by
        match a with
        | ⟨0, _⟩ => rfl)]

/-- A [32] vector broadcast to one row and then down the 50000 rows holds, at (n, c), the vector's entry c. -/
theorem biasDownOut_apply (b : S32.Idx → EReal) (h1 : S1x32.BroadcastsInDim S50000x32 ![0, 1])
    (h2 : S32.BroadcastsInDim S1x32 ![1]) (n : Fin 50000) (c : Fin 32) :
    broadcastInDim S50000x32 ![0, 1] h1 (broadcastInDim S1x32 ![1] h2 b) (ix2 n c) = b (ix1 c) := by
  rw [broadcastInDim_apply ![0, 1] h1 _ (ix2 n c) (ix2 (0 : Fin 1) c) (fun a => by
        match a with
        | ⟨0, _⟩ => rfl
        | ⟨1, _⟩ => rfl),
    broadcastInDim_apply ![1] h2 b (ix2 (0 : Fin 1) c) (ix1 c) (fun a => by
        match a with
        | ⟨0, _⟩ => rfl)]

/-- The host's linear message is `dense`. -/
theorem hostDense (X : S50000x128.Idx → EReal) (W : S128x128.Idx → EReal) :
    Host.dotGeneral (F := Ideal) (φ₁ := .f32) (φ₂ := .f32) dot_S50000x128_S128x128_S50000x128_1_0_0_1_n_n none X W = dense X W := by
  funext i
  obtain ⟨n, c, rfl⟩ : ∃ (n : Fin 50000) (c : Fin 128), i = ix2 n c := ⟨i 0, i 1, eq_ix2 i⟩
  exact hostProduct_apply (φ₁ := .f32) (φ₂ := .f32) X W n c

/-- The host's node update is `update`, with the bias as a reshaped row. -/
theorem hostUpdate (X : S50000x128.Idx → EReal) (W : S128x128.Idx → EReal) (b : S128.Idx → EReal) (A : S50000x128.Idx → EReal)
    (h1 : S1x128.BroadcastsInDim S50000x128 ![0, 1]) (h2 : S128.BroadcastsInDim S1x128 ![1]) (h3 : S128.ShapeCasts S1x128) :
    Host.tanh (F := Ideal) (φ := .f32) (addf (F := Ideal) (φ := .f32) (addf (F := Ideal) (φ := .f32)
        (Host.dotGeneral (F := Ideal) (φ₁ := .f32) (φ₂ := .f32) dot_S50000x128_S128x128_S50000x128_1_0_0_1_n_n none X W)
        (broadcastInDim S50000x128 ![0, 1] h1 (broadcastInDim S1x128 ![1] h2 b))) A)
      = update X W (shapeCast S1x128 b h3) A := by
  funext i
  obtain ⟨n, c, rfl⟩ : ∃ (n : Fin 50000) (c : Fin 128), i = ix2 n c := ⟨i 0, i 1, eq_ix2 i⟩
  show Ideal.tanh (Host.dotGeneral (F := Ideal) (φ₁ := .f32) (φ₂ := .f32) dot_S50000x128_S128x128_S50000x128_1_0_0_1_n_n none X W (ix2 n c)
      + broadcastInDim S50000x128 ![0, 1] h1 (broadcastInDim S1x128 ![1] h2 b) (ix2 n c) + A (ix2 n c))
    = Ideal.tanh ((∑ k : Fin 128, X (ix2 n k) * W (ix2 k c)) + shapeCast S1x128 b h3 (ix2 (0 : Fin 1) c) + A (ix2 n c))
  rw [hostProduct_apply (φ₁ := .f32) (φ₂ := .f32) X W n c, biasDown_apply, rowOfVector_apply]

/-- The host's output layer is `readout`, with the bias as a reshaped row. -/
theorem hostReadout (X : S50000x128.Idx → EReal) (W : S128x32.Idx → EReal) (b : S32.Idx → EReal)
    (h1 : S1x32.BroadcastsInDim S50000x32 ![0, 1]) (h2 : S32.BroadcastsInDim S1x32 ![1]) (h3 : S32.ShapeCasts S1x32) :
    addf (F := Ideal) (φ := .f32)
        (Host.dotGeneral (F := Ideal) (φ₁ := .f32) (φ₂ := .f32) dot_S50000x128_S128x32_S50000x32_1_0_0_1_n_n none X W)
        (broadcastInDim S50000x32 ![0, 1] h1 (broadcastInDim S1x32 ![1] h2 b))
      = readout X W (shapeCast S1x32 b h3) := by
  funext i
  obtain ⟨n, c, rfl⟩ : ∃ (n : Fin 50000) (c : Fin 32), i = ix2 n c := ⟨i 0, i 1, eq_ix2 i⟩
  show Host.dotGeneral (F := Ideal) (φ₁ := .f32) (φ₂ := .f32) dot_S50000x128_S128x32_S50000x32_1_0_0_1_n_n none X W (ix2 n c)
      + broadcastInDim S50000x32 ![0, 1] h1 (broadcastInDim S1x32 ![1] h2 b) (ix2 n c)
    = (∑ k : Fin 128, X (ix2 n k) * W (ix2 k c)) + shapeCast S1x32 b h3 (ix2 (0 : Fin 1) c)
  rw [hostProductOut_apply (φ₁ := .f32) (φ₂ := .f32) X W n c, biasDownOut_apply, rowOfVectorOut_apply]

end Cert.Mpnn

end
-- ==== Proof.KernelValue.lean ====
/-
  The buffers of the idealized kernel along @main, as functions of the arguments.

  @main alternates seven stretches of host operations with seven calls; W0 … W14 are the buffer contents at the
  fifteen boundaries.  Every value the program computes is written once, to a buffer of its own, so a buffer read at
  a later boundary still holds what its defining step left there: a host stretch changes only the buffers its
  operations write, and a call changes only its output array (its input arrays are read back as they were found).
  Walking forward from the launch memory, each buffer a later step reads is identified, at each boundary up to its
  last use, with a function of the fourteen arguments:

    * the edge sources and destinations (the two rows of the edge index), the edge weights as a column, the
      transposed weights and the biases as rows are the host operations' own terms;
    * a linear-message call leaves `dense`, a node-update call `update`, the output call `readout` of the arrays it
      found (the region modules), which are the reference's host expressions of the same arrays (the host-forms
      module);
    * the aggregated messages are the same gather, product and scatter-add of the same operands in both programs.

  The functions of the arguments used as names for these values are the reference program's own stages, one per
  operation of its @main, so the last line says that the kernel's result array is the reference's result term.
-/
import proofs.«158552_j34832184771009_1_alg».proof.Proof.RegionLinear
import proofs.«158552_j34832184771009_1_alg».proof.Proof.RegionUpdate
import proofs.«158552_j34832184771009_1_alg».proof.Proof.RegionReadout
import proofs.«158552_j34832184771009_1_alg».proof.Proof.HostForms
import proofs.«158552_j34832184771009_1_alg».proof.Proof.Gen.ReferenceIdeal.Read
import Idealize.ShloMosaic.Lib.StableHlo.Run

set_option maxRecDepth 16384

noncomputable section

namespace Cert.Mpnn

open Idealize.ShloMosaic Idealize.ShloMosaic.TcCoe Idealize.SL.Sem Idealize.ShloMosaic.StableHlo
open Cert.KernelIdeal Cert.KernelIdeal.Gen Cert.KernelIdeal.GenP

variable (m : (ℓ : Loc nD τ sig) → Buf (Elt Ideal) ℓ) (ρ : Dev nD → PrngReg) (c : Dev nD)

/-! ## At launch: the arguments. -/

theorem at0_arg0 : W0 m ρ c (Proc.devRef .tc main_arg0) = m ((c : Thread nD τ).loc main_arg0) := rfl

theorem at0_arg4 : W0 m ρ c (Proc.devRef .tc main_arg4) = m ((c : Thread nD τ).loc main_arg4) := rfl

theorem at0_arg5 : W0 m ρ c (Proc.devRef .tc main_arg5) = m ((c : Thread nD τ).loc main_arg5) := rfl

theorem at0_arg1 : W0 m ρ c (Proc.devRef .tc main_arg1) = m ((c : Thread nD τ).loc main_arg1) := rfl

theorem at0_arg2 : W0 m ρ c (Proc.devRef .tc main_arg2) = m ((c : Thread nD τ).loc main_arg2) := rfl

theorem at0_arg3 : W0 m ρ c (Proc.devRef .tc main_arg3) = m ((c : Thread nD τ).loc main_arg3) := rfl

theorem at0_arg7 : W0 m ρ c (Proc.devRef .tc main_arg7) = m ((c : Thread nD τ).loc main_arg7) := rfl

theorem at0_arg8 : W0 m ρ c (Proc.devRef .tc main_arg8) = m ((c : Thread nD τ).loc main_arg8) := rfl

theorem at0_arg6 : W0 m ρ c (Proc.devRef .tc main_arg6) = m ((c : Thread nD τ).loc main_arg6) := rfl

theorem at0_arg10 : W0 m ρ c (Proc.devRef .tc main_arg10) = m ((c : Thread nD τ).loc main_arg10) := rfl

theorem at0_arg11 : W0 m ρ c (Proc.devRef .tc main_arg11) = m ((c : Thread nD τ).loc main_arg11) := rfl

theorem at0_arg9 : W0 m ρ c (Proc.devRef .tc main_arg9) = m ((c : Thread nD τ).loc main_arg9) := rfl

theorem at0_arg12 : W0 m ρ c (Proc.devRef .tc main_arg12) = m ((c : Thread nD τ).loc main_arg12) := rfl

theorem at0_arg13 : W0 m ρ c (Proc.devRef .tc main_arg13) = m ((c : Thread nD τ).loc main_arg13) := rfl

/-! ## After the first host stretch: the source and destination node of every edge, the edge weights as a column, and the first layer's two weights transposed. -/

theorem at1_v6 : W1 m ρ c (Proc.devRef .tc main_v6) = Cert.ReferenceIdeal.Read.val_main_v19 (F := Ideal) (m ((c : Thread nD τ).loc main_arg4)) := by
  show StableHlo.after hostOps0 (W0 m ρ c) (Proc.devRef .tc main_v6) = _
  dsimp only [hostOps0]
  after_results
  rw [at0_arg4 m ρ c]
  rfl

theorem at1_v1 : W1 m ρ c (Proc.devRef .tc main_v1) = Cert.ReferenceIdeal.Read.val_main_v1 (F := Ideal) (m ((c : Thread nD τ).loc main_arg1)) := by
  show StableHlo.after hostOps0 (W0 m ρ c) (Proc.devRef .tc main_v1) = _
  dsimp only [hostOps0]
  after_results
  rw [at0_arg1 m ρ c]
  rfl

theorem at1_v3 : W1 m ρ c (Proc.devRef .tc main_v3) = Cert.ReferenceIdeal.Read.val_main_v3 (F := Ideal) (m ((c : Thread nD τ).loc main_arg1)) := by
  show StableHlo.after hostOps0 (W0 m ρ c) (Proc.devRef .tc main_v3) = _
  dsimp only [hostOps0]
  after_results
  rw [at0_arg1 m ρ c]
  rfl

theorem at1_v4 : W1 m ρ c (Proc.devRef .tc main_v4) = Cert.ReferenceIdeal.Read.val_main_v6 (F := Ideal) (m ((c : Thread nD τ).loc main_arg2)) := by
  show StableHlo.after hostOps0 (W0 m ρ c) (Proc.devRef .tc main_v4) = _
  dsimp only [hostOps0]
  after_results
  rw [at0_arg2 m ρ c]
  rfl

theorem at1_v5 : W1 m ρ c (Proc.devRef .tc main_v5) = Cert.ReferenceIdeal.Read.val_main_v4 (F := Ideal) (m ((c : Thread nD τ).loc main_arg3)) := by
  show StableHlo.after hostOps0 (W0 m ρ c) (Proc.devRef .tc main_v5) = _
  dsimp only [hostOps0]
  after_results
  rw [at0_arg3 m ρ c]
  rfl

theorem at1_arg0 : W1 m ρ c (Proc.devRef .tc main_arg0) = m ((c : Thread nD τ).loc main_arg0) :=
  (show StableHlo.after hostOps0 (W0 m ρ c) (Proc.devRef .tc main_arg0) = W0 m ρ c (Proc.devRef .tc main_arg0) by
    dsimp only [hostOps0]; after_results <;> rfl).trans (at0_arg0 m ρ c)

theorem at1_arg5 : W1 m ρ c (Proc.devRef .tc main_arg5) = m ((c : Thread nD τ).loc main_arg5) :=
  (show StableHlo.after hostOps0 (W0 m ρ c) (Proc.devRef .tc main_arg5) = W0 m ρ c (Proc.devRef .tc main_arg5) by
    dsimp only [hostOps0]; after_results <;> rfl).trans (at0_arg5 m ρ c)

theorem at1_arg7 : W1 m ρ c (Proc.devRef .tc main_arg7) = m ((c : Thread nD τ).loc main_arg7) :=
  (show StableHlo.after hostOps0 (W0 m ρ c) (Proc.devRef .tc main_arg7) = W0 m ρ c (Proc.devRef .tc main_arg7) by
    dsimp only [hostOps0]; after_results <;> rfl).trans (at0_arg7 m ρ c)

theorem at1_arg8 : W1 m ρ c (Proc.devRef .tc main_arg8) = m ((c : Thread nD τ).loc main_arg8) :=
  (show StableHlo.after hostOps0 (W0 m ρ c) (Proc.devRef .tc main_arg8) = W0 m ρ c (Proc.devRef .tc main_arg8) by
    dsimp only [hostOps0]; after_results <;> rfl).trans (at0_arg8 m ρ c)

theorem at1_arg6 : W1 m ρ c (Proc.devRef .tc main_arg6) = m ((c : Thread nD τ).loc main_arg6) :=
  (show StableHlo.after hostOps0 (W0 m ρ c) (Proc.devRef .tc main_arg6) = W0 m ρ c (Proc.devRef .tc main_arg6) by
    dsimp only [hostOps0]; after_results <;> rfl).trans (at0_arg6 m ρ c)

theorem at1_arg10 : W1 m ρ c (Proc.devRef .tc main_arg10) = m ((c : Thread nD τ).loc main_arg10) :=
  (show StableHlo.after hostOps0 (W0 m ρ c) (Proc.devRef .tc main_arg10) = W0 m ρ c (Proc.devRef .tc main_arg10) by
    dsimp only [hostOps0]; after_results <;> rfl).trans (at0_arg10 m ρ c)

theorem at1_arg11 : W1 m ρ c (Proc.devRef .tc main_arg11) = m ((c : Thread nD τ).loc main_arg11) :=
  (show StableHlo.after hostOps0 (W0 m ρ c) (Proc.devRef .tc main_arg11) = W0 m ρ c (Proc.devRef .tc main_arg11) by
    dsimp only [hostOps0]; after_results <;> rfl).trans (at0_arg11 m ρ c)

theorem at1_arg9 : W1 m ρ c (Proc.devRef .tc main_arg9) = m ((c : Thread nD τ).loc main_arg9) :=
  (show StableHlo.after hostOps0 (W0 m ρ c) (Proc.devRef .tc main_arg9) = W0 m ρ c (Proc.devRef .tc main_arg9) by
    dsimp only [hostOps0]; after_results <;> rfl).trans (at0_arg9 m ρ c)

theorem at1_arg12 : W1 m ρ c (Proc.devRef .tc main_arg12) = m ((c : Thread nD τ).loc main_arg12) :=
  (show StableHlo.after hostOps0 (W0 m ρ c) (Proc.devRef .tc main_arg12) = W0 m ρ c (Proc.devRef .tc main_arg12) by
    dsimp only [hostOps0]; after_results <;> rfl).trans (at0_arg12 m ρ c)

theorem at1_arg13 : W1 m ρ c (Proc.devRef .tc main_arg13) = m ((c : Thread nD τ).loc main_arg13) :=
  (show StableHlo.after hostOps0 (W0 m ρ c) (Proc.devRef .tc main_arg13) = W0 m ρ c (Proc.devRef .tc main_arg13) by
    dsimp only [hostOps0]; after_results <;> rfl).trans (at0_arg13 m ρ c)

/-! ## After the first call: the first layer's linear message. -/

theorem at2_v7 : W2 m ρ c (Proc.devRef .tc main_v7) = Cert.ReferenceIdeal.Read.val_main_v5 (F := Ideal) (m ((c : Thread nD τ).loc main_arg0)) (m ((c : Thread nD τ).loc main_arg3)) := by
  refine ((W2_arr m ρ c 2).trans (dense0 (V1 m ρ) c)).trans ?_
  show dense (W1 m ρ c (Proc.devRef .tc main_arg0)) (W1 m ρ c (Proc.devRef .tc main_v5)) = _
  rw [at1_arg0 m ρ c, at1_v5 m ρ c]
  exact (hostDense _ _).symm

theorem at2_arg0 : W2 m ρ c (Proc.devRef .tc main_arg0) = m ((c : Thread nD τ).loc main_arg0) :=
  ((W2_arr m ρ c 0).trans (((dat0 (V1 m ρ) c).arrAt_in 0 rfl _).trans (A_eq0 (V1 m ρ) c 0))).trans (at1_arg0 m ρ c)

theorem at2_v6 : W2 m ρ c (Proc.devRef .tc main_v6) = Cert.ReferenceIdeal.Read.val_main_v19 (F := Ideal) (m ((c : Thread nD τ).loc main_arg4)) :=
  (W2_of_ne m ρ c main_v6 (by decide)).trans (at1_v6 m ρ c)

theorem at2_arg5 : W2 m ρ c (Proc.devRef .tc main_arg5) = m ((c : Thread nD τ).loc main_arg5) :=
  (W2_of_ne m ρ c main_arg5 (by decide)).trans (at1_arg5 m ρ c)

theorem at2_v1 : W2 m ρ c (Proc.devRef .tc main_v1) = Cert.ReferenceIdeal.Read.val_main_v1 (F := Ideal) (m ((c : Thread nD τ).loc main_arg1)) :=
  (W2_of_ne m ρ c main_v1 (by decide)).trans (at1_v1 m ρ c)

theorem at2_v3 : W2 m ρ c (Proc.devRef .tc main_v3) = Cert.ReferenceIdeal.Read.val_main_v3 (F := Ideal) (m ((c : Thread nD τ).loc main_arg1)) :=
  (W2_of_ne m ρ c main_v3 (by decide)).trans (at1_v3 m ρ c)

theorem at2_v4 : W2 m ρ c (Proc.devRef .tc main_v4) = Cert.ReferenceIdeal.Read.val_main_v6 (F := Ideal) (m ((c : Thread nD τ).loc main_arg2)) :=
  (W2_of_ne m ρ c main_v4 (by decide)).trans (at1_v4 m ρ c)

theorem at2_arg7 : W2 m ρ c (Proc.devRef .tc main_arg7) = m ((c : Thread nD τ).loc main_arg7) :=
  (W2_of_ne m ρ c main_arg7 (by decide)).trans (at1_arg7 m ρ c)

theorem at2_arg8 : W2 m ρ c (Proc.devRef .tc main_arg8) = m ((c : Thread nD τ).loc main_arg8) :=
  (W2_of_ne m ρ c main_arg8 (by decide)).trans (at1_arg8 m ρ c)

theorem at2_arg6 : W2 m ρ c (Proc.devRef .tc main_arg6) = m ((c : Thread nD τ).loc main_arg6) :=
  (W2_of_ne m ρ c main_arg6 (by decide)).trans (at1_arg6 m ρ c)

theorem at2_arg10 : W2 m ρ c (Proc.devRef .tc main_arg10) = m ((c : Thread nD τ).loc main_arg10) :=
  (W2_of_ne m ρ c main_arg10 (by decide)).trans (at1_arg10 m ρ c)

theorem at2_arg11 : W2 m ρ c (Proc.devRef .tc main_arg11) = m ((c : Thread nD τ).loc main_arg11) :=
  (W2_of_ne m ρ c main_arg11 (by decide)).trans (at1_arg11 m ρ c)

theorem at2_arg9 : W2 m ρ c (Proc.devRef .tc main_arg9) = m ((c : Thread nD τ).loc main_arg9) :=
  (W2_of_ne m ρ c main_arg9 (by decide)).trans (at1_arg9 m ρ c)

theorem at2_arg12 : W2 m ρ c (Proc.devRef .tc main_arg12) = m ((c : Thread nD τ).loc main_arg12) :=
  (W2_of_ne m ρ c main_arg12 (by decide)).trans (at1_arg12 m ρ c)

theorem at2_arg13 : W2 m ρ c (Proc.devRef .tc main_arg13) = m ((c : Thread nD τ).loc main_arg13) :=
  (W2_of_ne m ρ c main_arg13 (by decide)).trans (at1_arg13 m ρ c)

/-! ## After the second host stretch: the first layer's aggregated messages (gather by source, weight, scatter-add by destination) and its bias as a row. -/

theorem at3_v20 : W3 m ρ c (Proc.devRef .tc main_v20) = shapeCast S1x128 (m ((c : Thread nD τ).loc main_arg5)) Cert.KernelIdeal.Facts₀.shapeCasts_S128_S1x128 := by
  show StableHlo.after hostOps1 (W2 m ρ c) (Proc.devRef .tc main_v20) = _
  dsimp only [hostOps1]
  after_results
  rw [at2_arg5 m ρ c]
  rfl

theorem at3_v19 : W3 m ρ c (Proc.devRef .tc main_v19) = Cert.ReferenceIdeal.Read.val_main_v18 (F := Ideal) (m ((c : Thread nD τ).loc main_arg0)) (m ((c : Thread nD τ).loc main_arg1)) (m ((c : Thread nD τ).loc main_arg2)) (m ((c : Thread nD τ).loc main_arg3)) := by
  show StableHlo.after hostOps1 (W2 m ρ c) (Proc.devRef .tc main_v19) = _
  dsimp only [hostOps1]
  after_results_simp
  rw [at2_v1 m ρ c, at2_v3 m ρ c, at2_v4 m ρ c, at2_v7 m ρ c]
  rfl

theorem at3_arg0 : W3 m ρ c (Proc.devRef .tc main_arg0) = m ((c : Thread nD τ).loc main_arg0) :=
  (show StableHlo.after hostOps1 (W2 m ρ c) (Proc.devRef .tc main_arg0) = W2 m ρ c (Proc.devRef .tc main_arg0) by
    dsimp only [hostOps1]; after_results <;> rfl).trans (at2_arg0 m ρ c)

theorem at3_v6 : W3 m ρ c (Proc.devRef .tc main_v6) = Cert.ReferenceIdeal.Read.val_main_v19 (F := Ideal) (m ((c : Thread nD τ).loc main_arg4)) :=
  (show StableHlo.after hostOps1 (W2 m ρ c) (Proc.devRef .tc main_v6) = W2 m ρ c (Proc.devRef .tc main_v6) by
    dsimp only [hostOps1]; after_results <;> rfl).trans (at2_v6 m ρ c)

theorem at3_arg7 : W3 m ρ c (Proc.devRef .tc main_arg7) = m ((c : Thread nD τ).loc main_arg7) :=
  (show StableHlo.after hostOps1 (W2 m ρ c) (Proc.devRef .tc main_arg7) = W2 m ρ c (Proc.devRef .tc main_arg7) by
    dsimp only [hostOps1]; after_results <;> rfl).trans (at2_arg7 m ρ c)

theorem at3_arg8 : W3 m ρ c (Proc.devRef .tc main_arg8) = m ((c : Thread nD τ).loc main_arg8) :=
  (show StableHlo.after hostOps1 (W2 m ρ c) (Proc.devRef .tc main_arg8) = W2 m ρ c (Proc.devRef .tc main_arg8) by
    dsimp only [hostOps1]; after_results <;> rfl).trans (at2_arg8 m ρ c)

theorem at3_v1 : W3 m ρ c (Proc.devRef .tc main_v1) = Cert.ReferenceIdeal.Read.val_main_v1 (F := Ideal) (m ((c : Thread nD τ).loc main_arg1)) :=
  (show StableHlo.after hostOps1 (W2 m ρ c) (Proc.devRef .tc main_v1) = W2 m ρ c (Proc.devRef .tc main_v1) by
    dsimp only [hostOps1]; after_results <;> rfl).trans (at2_v1 m ρ c)

theorem at3_v3 : W3 m ρ c (Proc.devRef .tc main_v3) = Cert.ReferenceIdeal.Read.val_main_v3 (F := Ideal) (m ((c : Thread nD τ).loc main_arg1)) :=
  (show StableHlo.after hostOps1 (W2 m ρ c) (Proc.devRef .tc main_v3) = W2 m ρ c (Proc.devRef .tc main_v3) by
    dsimp only [hostOps1]; after_results <;> rfl).trans (at2_v3 m ρ c)

theorem at3_v4 : W3 m ρ c (Proc.devRef .tc main_v4) = Cert.ReferenceIdeal.Read.val_main_v6 (F := Ideal) (m ((c : Thread nD τ).loc main_arg2)) :=
  (show StableHlo.after hostOps1 (W2 m ρ c) (Proc.devRef .tc main_v4) = W2 m ρ c (Proc.devRef .tc main_v4) by
    dsimp only [hostOps1]; after_results <;> rfl).trans (at2_v4 m ρ c)

theorem at3_arg6 : W3 m ρ c (Proc.devRef .tc main_arg6) = m ((c : Thread nD τ).loc main_arg6) :=
  (show StableHlo.after hostOps1 (W2 m ρ c) (Proc.devRef .tc main_arg6) = W2 m ρ c (Proc.devRef .tc main_arg6) by
    dsimp only [hostOps1]; after_results <;> rfl).trans (at2_arg6 m ρ c)

theorem at3_arg10 : W3 m ρ c (Proc.devRef .tc main_arg10) = m ((c : Thread nD τ).loc main_arg10) :=
  (show StableHlo.after hostOps1 (W2 m ρ c) (Proc.devRef .tc main_arg10) = W2 m ρ c (Proc.devRef .tc main_arg10) by
    dsimp only [hostOps1]; after_results <;> rfl).trans (at2_arg10 m ρ c)

theorem at3_arg11 : W3 m ρ c (Proc.devRef .tc main_arg11) = m ((c : Thread nD τ).loc main_arg11) :=
  (show StableHlo.after hostOps1 (W2 m ρ c) (Proc.devRef .tc main_arg11) = W2 m ρ c (Proc.devRef .tc main_arg11) by
    dsimp only [hostOps1]; after_results <;> rfl).trans (at2_arg11 m ρ c)

theorem at3_arg9 : W3 m ρ c (Proc.devRef .tc main_arg9) = m ((c : Thread nD τ).loc main_arg9) :=
  (show StableHlo.after hostOps1 (W2 m ρ c) (Proc.devRef .tc main_arg9) = W2 m ρ c (Proc.devRef .tc main_arg9) by
    dsimp only [hostOps1]; after_results <;> rfl).trans (at2_arg9 m ρ c)

theorem at3_arg12 : W3 m ρ c (Proc.devRef .tc main_arg12) = m ((c : Thread nD τ).loc main_arg12) :=
  (show StableHlo.after hostOps1 (W2 m ρ c) (Proc.devRef .tc main_arg12) = W2 m ρ c (Proc.devRef .tc main_arg12) by
    dsimp only [hostOps1]; after_results <;> rfl).trans (at2_arg12 m ρ c)

theorem at3_arg13 : W3 m ρ c (Proc.devRef .tc main_arg13) = m ((c : Thread nD τ).loc main_arg13) :=
  (show StableHlo.after hostOps1 (W2 m ρ c) (Proc.devRef .tc main_arg13) = W2 m ρ c (Proc.devRef .tc main_arg13) by
    dsimp only [hostOps1]; after_results <;> rfl).trans (at2_arg13 m ρ c)

/-! ## After the second call: the first layer's node features. -/

theorem at4_v21 : W4 m ρ c (Proc.devRef .tc main_v21) = Cert.ReferenceIdeal.Read.val_main_v25 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine ((W4_arr m ρ c 4).trans (update1 (V3 m ρ) c)).trans ?_
  show update (W3 m ρ c (Proc.devRef .tc main_arg0)) (W3 m ρ c (Proc.devRef .tc main_v6)) (W3 m ρ c (Proc.devRef .tc main_v20)) (W3 m ρ c (Proc.devRef .tc main_v19)) = _
  rw [at3_arg0 m ρ c, at3_v6 m ρ c, at3_v20 m ρ c, at3_v19 m ρ c]
  exact (hostUpdate _ _ _ _ _ _ _).symm

theorem at4_arg7 : W4 m ρ c (Proc.devRef .tc main_arg7) = m ((c : Thread nD τ).loc main_arg7) :=
  (W4_of_ne m ρ c main_arg7 (by decide)).trans (at3_arg7 m ρ c)

theorem at4_arg8 : W4 m ρ c (Proc.devRef .tc main_arg8) = m ((c : Thread nD τ).loc main_arg8) :=
  (W4_of_ne m ρ c main_arg8 (by decide)).trans (at3_arg8 m ρ c)

theorem at4_v1 : W4 m ρ c (Proc.devRef .tc main_v1) = Cert.ReferenceIdeal.Read.val_main_v1 (F := Ideal) (m ((c : Thread nD τ).loc main_arg1)) :=
  (W4_of_ne m ρ c main_v1 (by decide)).trans (at3_v1 m ρ c)

theorem at4_v3 : W4 m ρ c (Proc.devRef .tc main_v3) = Cert.ReferenceIdeal.Read.val_main_v3 (F := Ideal) (m ((c : Thread nD τ).loc main_arg1)) :=
  (W4_of_ne m ρ c main_v3 (by decide)).trans (at3_v3 m ρ c)

theorem at4_v4 : W4 m ρ c (Proc.devRef .tc main_v4) = Cert.ReferenceIdeal.Read.val_main_v6 (F := Ideal) (m ((c : Thread nD τ).loc main_arg2)) :=
  (W4_of_ne m ρ c main_v4 (by decide)).trans (at3_v4 m ρ c)

theorem at4_arg6 : W4 m ρ c (Proc.devRef .tc main_arg6) = m ((c : Thread nD τ).loc main_arg6) :=
  (W4_of_ne m ρ c main_arg6 (by decide)).trans (at3_arg6 m ρ c)

theorem at4_arg10 : W4 m ρ c (Proc.devRef .tc main_arg10) = m ((c : Thread nD τ).loc main_arg10) :=
  (W4_of_ne m ρ c main_arg10 (by decide)).trans (at3_arg10 m ρ c)

theorem at4_arg11 : W4 m ρ c (Proc.devRef .tc main_arg11) = m ((c : Thread nD τ).loc main_arg11) :=
  (W4_of_ne m ρ c main_arg11 (by decide)).trans (at3_arg11 m ρ c)

theorem at4_arg9 : W4 m ρ c (Proc.devRef .tc main_arg9) = m ((c : Thread nD τ).loc main_arg9) :=
  (W4_of_ne m ρ c main_arg9 (by decide)).trans (at3_arg9 m ρ c)

theorem at4_arg12 : W4 m ρ c (Proc.devRef .tc main_arg12) = m ((c : Thread nD τ).loc main_arg12) :=
  (W4_of_ne m ρ c main_arg12 (by decide)).trans (at3_arg12 m ρ c)

theorem at4_arg13 : W4 m ρ c (Proc.devRef .tc main_arg13) = m ((c : Thread nD τ).loc main_arg13) :=
  (W4_of_ne m ρ c main_arg13 (by decide)).trans (at3_arg13 m ρ c)

/-! ## After the third host stretch: the second layer's two weights transposed. -/

theorem at5_v23 : W5 m ρ c (Proc.devRef .tc main_v23) = Cert.ReferenceIdeal.Read.val_main_v45 (F := Ideal) (m ((c : Thread nD τ).loc main_arg7)) := by
  show StableHlo.after hostOps2 (W4 m ρ c) (Proc.devRef .tc main_v23) = _
  dsimp only [hostOps2]
  after_results
  rw [at4_arg7 m ρ c]
  rfl

theorem at5_v22 : W5 m ρ c (Proc.devRef .tc main_v22) = Cert.ReferenceIdeal.Read.val_main_v30 (F := Ideal) (m ((c : Thread nD τ).loc main_arg6)) := by
  show StableHlo.after hostOps2 (W4 m ρ c) (Proc.devRef .tc main_v22) = _
  dsimp only [hostOps2]
  after_results
  rw [at4_arg6 m ρ c]
  rfl

theorem at5_v21 : W5 m ρ c (Proc.devRef .tc main_v21) = Cert.ReferenceIdeal.Read.val_main_v25 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  (show StableHlo.after hostOps2 (W4 m ρ c) (Proc.devRef .tc main_v21) = W4 m ρ c (Proc.devRef .tc main_v21) by
    dsimp only [hostOps2]; after_results <;> rfl).trans (at4_v21 m ρ c)

theorem at5_arg8 : W5 m ρ c (Proc.devRef .tc main_arg8) = m ((c : Thread nD τ).loc main_arg8) :=
  (show StableHlo.after hostOps2 (W4 m ρ c) (Proc.devRef .tc main_arg8) = W4 m ρ c (Proc.devRef .tc main_arg8) by
    dsimp only [hostOps2]; after_results <;> rfl).trans (at4_arg8 m ρ c)

theorem at5_v1 : W5 m ρ c (Proc.devRef .tc main_v1) = Cert.ReferenceIdeal.Read.val_main_v1 (F := Ideal) (m ((c : Thread nD τ).loc main_arg1)) :=
  (show StableHlo.after hostOps2 (W4 m ρ c) (Proc.devRef .tc main_v1) = W4 m ρ c (Proc.devRef .tc main_v1) by
    dsimp only [hostOps2]; after_results <;> rfl).trans (at4_v1 m ρ c)

theorem at5_v3 : W5 m ρ c (Proc.devRef .tc main_v3) = Cert.ReferenceIdeal.Read.val_main_v3 (F := Ideal) (m ((c : Thread nD τ).loc main_arg1)) :=
  (show StableHlo.after hostOps2 (W4 m ρ c) (Proc.devRef .tc main_v3) = W4 m ρ c (Proc.devRef .tc main_v3) by
    dsimp only [hostOps2]; after_results <;> rfl).trans (at4_v3 m ρ c)

theorem at5_v4 : W5 m ρ c (Proc.devRef .tc main_v4) = Cert.ReferenceIdeal.Read.val_main_v6 (F := Ideal) (m ((c : Thread nD τ).loc main_arg2)) :=
  (show StableHlo.after hostOps2 (W4 m ρ c) (Proc.devRef .tc main_v4) = W4 m ρ c (Proc.devRef .tc main_v4) by
    dsimp only [hostOps2]; after_results <;> rfl).trans (at4_v4 m ρ c)

theorem at5_arg10 : W5 m ρ c (Proc.devRef .tc main_arg10) = m ((c : Thread nD τ).loc main_arg10) :=
  (show StableHlo.after hostOps2 (W4 m ρ c) (Proc.devRef .tc main_arg10) = W4 m ρ c (Proc.devRef .tc main_arg10) by
    dsimp only [hostOps2]; after_results <;> rfl).trans (at4_arg10 m ρ c)

theorem at5_arg11 : W5 m ρ c (Proc.devRef .tc main_arg11) = m ((c : Thread nD τ).loc main_arg11) :=
  (show StableHlo.after hostOps2 (W4 m ρ c) (Proc.devRef .tc main_arg11) = W4 m ρ c (Proc.devRef .tc main_arg11) by
    dsimp only [hostOps2]; after_results <;> rfl).trans (at4_arg11 m ρ c)

theorem at5_arg9 : W5 m ρ c (Proc.devRef .tc main_arg9) = m ((c : Thread nD τ).loc main_arg9) :=
  (show StableHlo.after hostOps2 (W4 m ρ c) (Proc.devRef .tc main_arg9) = W4 m ρ c (Proc.devRef .tc main_arg9) by
    dsimp only [hostOps2]; after_results <;> rfl).trans (at4_arg9 m ρ c)

theorem at5_arg12 : W5 m ρ c (Proc.devRef .tc main_arg12) = m ((c : Thread nD τ).loc main_arg12) :=
  (show StableHlo.after hostOps2 (W4 m ρ c) (Proc.devRef .tc main_arg12) = W4 m ρ c (Proc.devRef .tc main_arg12) by
    dsimp only [hostOps2]; after_results <;> rfl).trans (at4_arg12 m ρ c)

theorem at5_arg13 : W5 m ρ c (Proc.devRef .tc main_arg13) = m ((c : Thread nD τ).loc main_arg13) :=
  (show StableHlo.after hostOps2 (W4 m ρ c) (Proc.devRef .tc main_arg13) = W4 m ρ c (Proc.devRef .tc main_arg13) by
    dsimp only [hostOps2]; after_results <;> rfl).trans (at4_arg13 m ρ c)

/-! ## After the third call: the second layer's linear message. -/

theorem at6_v24 : W6 m ρ c (Proc.devRef .tc main_v24) = Cert.ReferenceIdeal.Read.val_main_v31 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine ((W6_arr m ρ c 2).trans (dense2 (V5 m ρ) c)).trans ?_
  show dense (W5 m ρ c (Proc.devRef .tc main_v21)) (W5 m ρ c (Proc.devRef .tc main_v22)) = _
  rw [at5_v21 m ρ c, at5_v22 m ρ c]
  exact (hostDense _ _).symm

theorem at6_v21 : W6 m ρ c (Proc.devRef .tc main_v21) = Cert.ReferenceIdeal.Read.val_main_v25 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  ((W6_arr m ρ c 0).trans (((dat2 (V5 m ρ) c).arrAt_in 0 rfl _).trans (A_eq2 (V5 m ρ) c 0))).trans (at5_v21 m ρ c)

theorem at6_v23 : W6 m ρ c (Proc.devRef .tc main_v23) = Cert.ReferenceIdeal.Read.val_main_v45 (F := Ideal) (m ((c : Thread nD τ).loc main_arg7)) :=
  (W6_of_ne m ρ c main_v23 (by decide)).trans (at5_v23 m ρ c)

theorem at6_arg8 : W6 m ρ c (Proc.devRef .tc main_arg8) = m ((c : Thread nD τ).loc main_arg8) :=
  (W6_of_ne m ρ c main_arg8 (by decide)).trans (at5_arg8 m ρ c)

theorem at6_v1 : W6 m ρ c (Proc.devRef .tc main_v1) = Cert.ReferenceIdeal.Read.val_main_v1 (F := Ideal) (m ((c : Thread nD τ).loc main_arg1)) :=
  (W6_of_ne m ρ c main_v1 (by decide)).trans (at5_v1 m ρ c)

theorem at6_v3 : W6 m ρ c (Proc.devRef .tc main_v3) = Cert.ReferenceIdeal.Read.val_main_v3 (F := Ideal) (m ((c : Thread nD τ).loc main_arg1)) :=
  (W6_of_ne m ρ c main_v3 (by decide)).trans (at5_v3 m ρ c)

theorem at6_v4 : W6 m ρ c (Proc.devRef .tc main_v4) = Cert.ReferenceIdeal.Read.val_main_v6 (F := Ideal) (m ((c : Thread nD τ).loc main_arg2)) :=
  (W6_of_ne m ρ c main_v4 (by decide)).trans (at5_v4 m ρ c)

theorem at6_arg10 : W6 m ρ c (Proc.devRef .tc main_arg10) = m ((c : Thread nD τ).loc main_arg10) :=
  (W6_of_ne m ρ c main_arg10 (by decide)).trans (at5_arg10 m ρ c)

theorem at6_arg11 : W6 m ρ c (Proc.devRef .tc main_arg11) = m ((c : Thread nD τ).loc main_arg11) :=
  (W6_of_ne m ρ c main_arg11 (by decide)).trans (at5_arg11 m ρ c)

theorem at6_arg9 : W6 m ρ c (Proc.devRef .tc main_arg9) = m ((c : Thread nD τ).loc main_arg9) :=
  (W6_of_ne m ρ c main_arg9 (by decide)).trans (at5_arg9 m ρ c)

theorem at6_arg12 : W6 m ρ c (Proc.devRef .tc main_arg12) = m ((c : Thread nD τ).loc main_arg12) :=
  (W6_of_ne m ρ c main_arg12 (by decide)).trans (at5_arg12 m ρ c)

theorem at6_arg13 : W6 m ρ c (Proc.devRef .tc main_arg13) = m ((c : Thread nD τ).loc main_arg13) :=
  (W6_of_ne m ρ c main_arg13 (by decide)).trans (at5_arg13 m ρ c)

/-! ## After the fourth host stretch: the second layer's aggregated messages and its bias as a row. -/

theorem at7_v37 : W7 m ρ c (Proc.devRef .tc main_v37) = shapeCast S1x128 (m ((c : Thread nD τ).loc main_arg8)) Cert.KernelIdeal.Facts₀.shapeCasts_S128_S1x128 := by
  show StableHlo.after hostOps3 (W6 m ρ c) (Proc.devRef .tc main_v37) = _
  dsimp only [hostOps3]
  after_results
  rw [at6_arg8 m ρ c]
  rfl

theorem at7_v36 : W7 m ρ c (Proc.devRef .tc main_v36) = Cert.ReferenceIdeal.Read.val_main_v44 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  show StableHlo.after hostOps3 (W6 m ρ c) (Proc.devRef .tc main_v36) = _
  dsimp only [hostOps3]
  after_results_simp
  rw [at6_v1 m ρ c, at6_v3 m ρ c, at6_v4 m ρ c, at6_v24 m ρ c]
  rfl

theorem at7_v21 : W7 m ρ c (Proc.devRef .tc main_v21) = Cert.ReferenceIdeal.Read.val_main_v25 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  (show StableHlo.after hostOps3 (W6 m ρ c) (Proc.devRef .tc main_v21) = W6 m ρ c (Proc.devRef .tc main_v21) by
    dsimp only [hostOps3]; after_results <;> rfl).trans (at6_v21 m ρ c)

theorem at7_v23 : W7 m ρ c (Proc.devRef .tc main_v23) = Cert.ReferenceIdeal.Read.val_main_v45 (F := Ideal) (m ((c : Thread nD τ).loc main_arg7)) :=
  (show StableHlo.after hostOps3 (W6 m ρ c) (Proc.devRef .tc main_v23) = W6 m ρ c (Proc.devRef .tc main_v23) by
    dsimp only [hostOps3]; after_results <;> rfl).trans (at6_v23 m ρ c)

theorem at7_arg10 : W7 m ρ c (Proc.devRef .tc main_arg10) = m ((c : Thread nD τ).loc main_arg10) :=
  (show StableHlo.after hostOps3 (W6 m ρ c) (Proc.devRef .tc main_arg10) = W6 m ρ c (Proc.devRef .tc main_arg10) by
    dsimp only [hostOps3]; after_results <;> rfl).trans (at6_arg10 m ρ c)

theorem at7_arg11 : W7 m ρ c (Proc.devRef .tc main_arg11) = m ((c : Thread nD τ).loc main_arg11) :=
  (show StableHlo.after hostOps3 (W6 m ρ c) (Proc.devRef .tc main_arg11) = W6 m ρ c (Proc.devRef .tc main_arg11) by
    dsimp only [hostOps3]; after_results <;> rfl).trans (at6_arg11 m ρ c)

theorem at7_v1 : W7 m ρ c (Proc.devRef .tc main_v1) = Cert.ReferenceIdeal.Read.val_main_v1 (F := Ideal) (m ((c : Thread nD τ).loc main_arg1)) :=
  (show StableHlo.after hostOps3 (W6 m ρ c) (Proc.devRef .tc main_v1) = W6 m ρ c (Proc.devRef .tc main_v1) by
    dsimp only [hostOps3]; after_results <;> rfl).trans (at6_v1 m ρ c)

theorem at7_v3 : W7 m ρ c (Proc.devRef .tc main_v3) = Cert.ReferenceIdeal.Read.val_main_v3 (F := Ideal) (m ((c : Thread nD τ).loc main_arg1)) :=
  (show StableHlo.after hostOps3 (W6 m ρ c) (Proc.devRef .tc main_v3) = W6 m ρ c (Proc.devRef .tc main_v3) by
    dsimp only [hostOps3]; after_results <;> rfl).trans (at6_v3 m ρ c)

theorem at7_v4 : W7 m ρ c (Proc.devRef .tc main_v4) = Cert.ReferenceIdeal.Read.val_main_v6 (F := Ideal) (m ((c : Thread nD τ).loc main_arg2)) :=
  (show StableHlo.after hostOps3 (W6 m ρ c) (Proc.devRef .tc main_v4) = W6 m ρ c (Proc.devRef .tc main_v4) by
    dsimp only [hostOps3]; after_results <;> rfl).trans (at6_v4 m ρ c)

theorem at7_arg9 : W7 m ρ c (Proc.devRef .tc main_arg9) = m ((c : Thread nD τ).loc main_arg9) :=
  (show StableHlo.after hostOps3 (W6 m ρ c) (Proc.devRef .tc main_arg9) = W6 m ρ c (Proc.devRef .tc main_arg9) by
    dsimp only [hostOps3]; after_results <;> rfl).trans (at6_arg9 m ρ c)

theorem at7_arg12 : W7 m ρ c (Proc.devRef .tc main_arg12) = m ((c : Thread nD τ).loc main_arg12) :=
  (show StableHlo.after hostOps3 (W6 m ρ c) (Proc.devRef .tc main_arg12) = W6 m ρ c (Proc.devRef .tc main_arg12) by
    dsimp only [hostOps3]; after_results <;> rfl).trans (at6_arg12 m ρ c)

theorem at7_arg13 : W7 m ρ c (Proc.devRef .tc main_arg13) = m ((c : Thread nD τ).loc main_arg13) :=
  (show StableHlo.after hostOps3 (W6 m ρ c) (Proc.devRef .tc main_arg13) = W6 m ρ c (Proc.devRef .tc main_arg13) by
    dsimp only [hostOps3]; after_results <;> rfl).trans (at6_arg13 m ρ c)

/-! ## After the fourth call: the second layer's node features. -/

theorem at8_v38 : W8 m ρ c (Proc.devRef .tc main_v38) = Cert.ReferenceIdeal.Read.val_main_v51 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine ((W8_arr m ρ c 4).trans (update3 (V7 m ρ) c)).trans ?_
  show update (W7 m ρ c (Proc.devRef .tc main_v21)) (W7 m ρ c (Proc.devRef .tc main_v23)) (W7 m ρ c (Proc.devRef .tc main_v37)) (W7 m ρ c (Proc.devRef .tc main_v36)) = _
  rw [at7_v21 m ρ c, at7_v23 m ρ c, at7_v37 m ρ c, at7_v36 m ρ c]
  exact (hostUpdate _ _ _ _ _ _ _).symm

theorem at8_arg10 : W8 m ρ c (Proc.devRef .tc main_arg10) = m ((c : Thread nD τ).loc main_arg10) :=
  (W8_of_ne m ρ c main_arg10 (by decide)).trans (at7_arg10 m ρ c)

theorem at8_arg11 : W8 m ρ c (Proc.devRef .tc main_arg11) = m ((c : Thread nD τ).loc main_arg11) :=
  (W8_of_ne m ρ c main_arg11 (by decide)).trans (at7_arg11 m ρ c)

theorem at8_v1 : W8 m ρ c (Proc.devRef .tc main_v1) = Cert.ReferenceIdeal.Read.val_main_v1 (F := Ideal) (m ((c : Thread nD τ).loc main_arg1)) :=
  (W8_of_ne m ρ c main_v1 (by decide)).trans (at7_v1 m ρ c)

theorem at8_v3 : W8 m ρ c (Proc.devRef .tc main_v3) = Cert.ReferenceIdeal.Read.val_main_v3 (F := Ideal) (m ((c : Thread nD τ).loc main_arg1)) :=
  (W8_of_ne m ρ c main_v3 (by decide)).trans (at7_v3 m ρ c)

theorem at8_v4 : W8 m ρ c (Proc.devRef .tc main_v4) = Cert.ReferenceIdeal.Read.val_main_v6 (F := Ideal) (m ((c : Thread nD τ).loc main_arg2)) :=
  (W8_of_ne m ρ c main_v4 (by decide)).trans (at7_v4 m ρ c)

theorem at8_arg9 : W8 m ρ c (Proc.devRef .tc main_arg9) = m ((c : Thread nD τ).loc main_arg9) :=
  (W8_of_ne m ρ c main_arg9 (by decide)).trans (at7_arg9 m ρ c)

theorem at8_arg12 : W8 m ρ c (Proc.devRef .tc main_arg12) = m ((c : Thread nD τ).loc main_arg12) :=
  (W8_of_ne m ρ c main_arg12 (by decide)).trans (at7_arg12 m ρ c)

theorem at8_arg13 : W8 m ρ c (Proc.devRef .tc main_arg13) = m ((c : Thread nD τ).loc main_arg13) :=
  (W8_of_ne m ρ c main_arg13 (by decide)).trans (at7_arg13 m ρ c)

/-! ## After the fifth host stretch: the third layer's two weights transposed. -/

theorem at9_v40 : W9 m ρ c (Proc.devRef .tc main_v40) = Cert.ReferenceIdeal.Read.val_main_v71 (F := Ideal) (m ((c : Thread nD τ).loc main_arg10)) := by
  show StableHlo.after hostOps4 (W8 m ρ c) (Proc.devRef .tc main_v40) = _
  dsimp only [hostOps4]
  after_results
  rw [at8_arg10 m ρ c]
  rfl

theorem at9_v39 : W9 m ρ c (Proc.devRef .tc main_v39) = Cert.ReferenceIdeal.Read.val_main_v56 (F := Ideal) (m ((c : Thread nD τ).loc main_arg9)) := by
  show StableHlo.after hostOps4 (W8 m ρ c) (Proc.devRef .tc main_v39) = _
  dsimp only [hostOps4]
  after_results
  rw [at8_arg9 m ρ c]
  rfl

theorem at9_v38 : W9 m ρ c (Proc.devRef .tc main_v38) = Cert.ReferenceIdeal.Read.val_main_v51 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) :=
  (show StableHlo.after hostOps4 (W8 m ρ c) (Proc.devRef .tc main_v38) = W8 m ρ c (Proc.devRef .tc main_v38) by
    dsimp only [hostOps4]; after_results <;> rfl).trans (at8_v38 m ρ c)

theorem at9_arg11 : W9 m ρ c (Proc.devRef .tc main_arg11) = m ((c : Thread nD τ).loc main_arg11) :=
  (show StableHlo.after hostOps4 (W8 m ρ c) (Proc.devRef .tc main_arg11) = W8 m ρ c (Proc.devRef .tc main_arg11) by
    dsimp only [hostOps4]; after_results <;> rfl).trans (at8_arg11 m ρ c)

theorem at9_v1 : W9 m ρ c (Proc.devRef .tc main_v1) = Cert.ReferenceIdeal.Read.val_main_v1 (F := Ideal) (m ((c : Thread nD τ).loc main_arg1)) :=
  (show StableHlo.after hostOps4 (W8 m ρ c) (Proc.devRef .tc main_v1) = W8 m ρ c (Proc.devRef .tc main_v1) by
    dsimp only [hostOps4]; after_results <;> rfl).trans (at8_v1 m ρ c)

theorem at9_v3 : W9 m ρ c (Proc.devRef .tc main_v3) = Cert.ReferenceIdeal.Read.val_main_v3 (F := Ideal) (m ((c : Thread nD τ).loc main_arg1)) :=
  (show StableHlo.after hostOps4 (W8 m ρ c) (Proc.devRef .tc main_v3) = W8 m ρ c (Proc.devRef .tc main_v3) by
    dsimp only [hostOps4]; after_results <;> rfl).trans (at8_v3 m ρ c)

theorem at9_v4 : W9 m ρ c (Proc.devRef .tc main_v4) = Cert.ReferenceIdeal.Read.val_main_v6 (F := Ideal) (m ((c : Thread nD τ).loc main_arg2)) :=
  (show StableHlo.after hostOps4 (W8 m ρ c) (Proc.devRef .tc main_v4) = W8 m ρ c (Proc.devRef .tc main_v4) by
    dsimp only [hostOps4]; after_results <;> rfl).trans (at8_v4 m ρ c)

theorem at9_arg12 : W9 m ρ c (Proc.devRef .tc main_arg12) = m ((c : Thread nD τ).loc main_arg12) :=
  (show StableHlo.after hostOps4 (W8 m ρ c) (Proc.devRef .tc main_arg12) = W8 m ρ c (Proc.devRef .tc main_arg12) by
    dsimp only [hostOps4]; after_results <;> rfl).trans (at8_arg12 m ρ c)

theorem at9_arg13 : W9 m ρ c (Proc.devRef .tc main_arg13) = m ((c : Thread nD τ).loc main_arg13) :=
  (show StableHlo.after hostOps4 (W8 m ρ c) (Proc.devRef .tc main_arg13) = W8 m ρ c (Proc.devRef .tc main_arg13) by
    dsimp only [hostOps4]; after_results <;> rfl).trans (at8_arg13 m ρ c)

/-! ## After the fifth call: the third layer's linear message. -/

theorem at10_v41 : W10 m ρ c (Proc.devRef .tc main_v41) = Cert.ReferenceIdeal.Read.val_main_v57 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine ((W10_arr m ρ c 2).trans (dense4 (V9 m ρ) c)).trans ?_
  show dense (W9 m ρ c (Proc.devRef .tc main_v38)) (W9 m ρ c (Proc.devRef .tc main_v39)) = _
  rw [at9_v38 m ρ c, at9_v39 m ρ c]
  exact (hostDense _ _).symm

theorem at10_v38 : W10 m ρ c (Proc.devRef .tc main_v38) = Cert.ReferenceIdeal.Read.val_main_v51 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) :=
  ((W10_arr m ρ c 0).trans (((dat4 (V9 m ρ) c).arrAt_in 0 rfl _).trans (A_eq4 (V9 m ρ) c 0))).trans (at9_v38 m ρ c)

theorem at10_v40 : W10 m ρ c (Proc.devRef .tc main_v40) = Cert.ReferenceIdeal.Read.val_main_v71 (F := Ideal) (m ((c : Thread nD τ).loc main_arg10)) :=
  (W10_of_ne m ρ c main_v40 (by decide)).trans (at9_v40 m ρ c)

theorem at10_arg11 : W10 m ρ c (Proc.devRef .tc main_arg11) = m ((c : Thread nD τ).loc main_arg11) :=
  (W10_of_ne m ρ c main_arg11 (by decide)).trans (at9_arg11 m ρ c)

theorem at10_v1 : W10 m ρ c (Proc.devRef .tc main_v1) = Cert.ReferenceIdeal.Read.val_main_v1 (F := Ideal) (m ((c : Thread nD τ).loc main_arg1)) :=
  (W10_of_ne m ρ c main_v1 (by decide)).trans (at9_v1 m ρ c)

theorem at10_v3 : W10 m ρ c (Proc.devRef .tc main_v3) = Cert.ReferenceIdeal.Read.val_main_v3 (F := Ideal) (m ((c : Thread nD τ).loc main_arg1)) :=
  (W10_of_ne m ρ c main_v3 (by decide)).trans (at9_v3 m ρ c)

theorem at10_v4 : W10 m ρ c (Proc.devRef .tc main_v4) = Cert.ReferenceIdeal.Read.val_main_v6 (F := Ideal) (m ((c : Thread nD τ).loc main_arg2)) :=
  (W10_of_ne m ρ c main_v4 (by decide)).trans (at9_v4 m ρ c)

theorem at10_arg12 : W10 m ρ c (Proc.devRef .tc main_arg12) = m ((c : Thread nD τ).loc main_arg12) :=
  (W10_of_ne m ρ c main_arg12 (by decide)).trans (at9_arg12 m ρ c)

theorem at10_arg13 : W10 m ρ c (Proc.devRef .tc main_arg13) = m ((c : Thread nD τ).loc main_arg13) :=
  (W10_of_ne m ρ c main_arg13 (by decide)).trans (at9_arg13 m ρ c)

/-! ## After the sixth host stretch: the third layer's aggregated messages and its bias as a row. -/

theorem at11_v54 : W11 m ρ c (Proc.devRef .tc main_v54) = shapeCast S1x128 (m ((c : Thread nD τ).loc main_arg11)) Cert.KernelIdeal.Facts₀.shapeCasts_S128_S1x128 := by
  show StableHlo.after hostOps5 (W10 m ρ c) (Proc.devRef .tc main_v54) = _
  dsimp only [hostOps5]
  after_results
  rw [at10_arg11 m ρ c]
  rfl

theorem at11_v53 : W11 m ρ c (Proc.devRef .tc main_v53) = Cert.ReferenceIdeal.Read.val_main_v70 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  show StableHlo.after hostOps5 (W10 m ρ c) (Proc.devRef .tc main_v53) = _
  dsimp only [hostOps5]
  after_results_simp
  rw [at10_v1 m ρ c, at10_v3 m ρ c, at10_v4 m ρ c, at10_v41 m ρ c]
  rfl

theorem at11_v38 : W11 m ρ c (Proc.devRef .tc main_v38) = Cert.ReferenceIdeal.Read.val_main_v51 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) :=
  (show StableHlo.after hostOps5 (W10 m ρ c) (Proc.devRef .tc main_v38) = W10 m ρ c (Proc.devRef .tc main_v38) by
    dsimp only [hostOps5]; after_results <;> rfl).trans (at10_v38 m ρ c)

theorem at11_v40 : W11 m ρ c (Proc.devRef .tc main_v40) = Cert.ReferenceIdeal.Read.val_main_v71 (F := Ideal) (m ((c : Thread nD τ).loc main_arg10)) :=
  (show StableHlo.after hostOps5 (W10 m ρ c) (Proc.devRef .tc main_v40) = W10 m ρ c (Proc.devRef .tc main_v40) by
    dsimp only [hostOps5]; after_results <;> rfl).trans (at10_v40 m ρ c)

theorem at11_arg12 : W11 m ρ c (Proc.devRef .tc main_arg12) = m ((c : Thread nD τ).loc main_arg12) :=
  (show StableHlo.after hostOps5 (W10 m ρ c) (Proc.devRef .tc main_arg12) = W10 m ρ c (Proc.devRef .tc main_arg12) by
    dsimp only [hostOps5]; after_results <;> rfl).trans (at10_arg12 m ρ c)

theorem at11_arg13 : W11 m ρ c (Proc.devRef .tc main_arg13) = m ((c : Thread nD τ).loc main_arg13) :=
  (show StableHlo.after hostOps5 (W10 m ρ c) (Proc.devRef .tc main_arg13) = W10 m ρ c (Proc.devRef .tc main_arg13) by
    dsimp only [hostOps5]; after_results <;> rfl).trans (at10_arg13 m ρ c)

/-! ## After the sixth call: the third layer's node features. -/

theorem at12_v55 : W12 m ρ c (Proc.devRef .tc main_v55) = Cert.ReferenceIdeal.Read.val_main_v77 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  refine ((W12_arr m ρ c 4).trans (update5 (V11 m ρ) c)).trans ?_
  show update (W11 m ρ c (Proc.devRef .tc main_v38)) (W11 m ρ c (Proc.devRef .tc main_v40)) (W11 m ρ c (Proc.devRef .tc main_v54)) (W11 m ρ c (Proc.devRef .tc main_v53)) = _
  rw [at11_v38 m ρ c, at11_v40 m ρ c, at11_v54 m ρ c, at11_v53 m ρ c]
  exact (hostUpdate _ _ _ _ _ _ _).symm

theorem at12_arg12 : W12 m ρ c (Proc.devRef .tc main_arg12) = m ((c : Thread nD τ).loc main_arg12) :=
  (W12_of_ne m ρ c main_arg12 (by decide)).trans (at11_arg12 m ρ c)

theorem at12_arg13 : W12 m ρ c (Proc.devRef .tc main_arg13) = m ((c : Thread nD τ).loc main_arg13) :=
  (W12_of_ne m ρ c main_arg13 (by decide)).trans (at11_arg13 m ρ c)

/-! ## After the seventh host stretch: the output weight transposed and the output bias as a row. -/

theorem at13_v56 : W13 m ρ c (Proc.devRef .tc main_v56) = Cert.ReferenceIdeal.Read.val_main_v78 (F := Ideal) (m ((c : Thread nD τ).loc main_arg12)) := by
  show StableHlo.after hostOps6 (W12 m ρ c) (Proc.devRef .tc main_v56) = _
  dsimp only [hostOps6]
  after_results
  rw [at12_arg12 m ρ c]
  rfl

theorem at13_v57 : W13 m ρ c (Proc.devRef .tc main_v57) = shapeCast S1x32 (m ((c : Thread nD τ).loc main_arg13)) Cert.KernelIdeal.Facts₀.shapeCasts_S32_S1x32 := by
  show StableHlo.after hostOps6 (W12 m ρ c) (Proc.devRef .tc main_v57) = _
  dsimp only [hostOps6]
  after_results
  rw [at12_arg13 m ρ c]
  rfl

theorem at13_v55 : W13 m ρ c (Proc.devRef .tc main_v55) = Cert.ReferenceIdeal.Read.val_main_v77 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) :=
  (show StableHlo.after hostOps6 (W12 m ρ c) (Proc.devRef .tc main_v55) = W12 m ρ c (Proc.devRef .tc main_v55) by
    dsimp only [hostOps6]; after_results <;> rfl).trans (at12_v55 m ρ c)

/-! ## After the seventh call: the result. -/

theorem at14_v58 : W14 m ρ c (Proc.devRef .tc main_v58) = Cert.ReferenceIdeal.Read.val_main_v82 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := by
  refine ((W14_arr m ρ c 3).trans (readout6 (V13 m ρ) c)).trans ?_
  show readout (W13 m ρ c (Proc.devRef .tc main_v55)) (W13 m ρ c (Proc.devRef .tc main_v56)) (W13 m ρ c (Proc.devRef .tc main_v57)) = _
  rw [at13_v55 m ρ c, at13_v56 m ρ c, at13_v57 m ρ c]
  exact (hostReadout _ _ _ _ _ _).symm

end Cert.Mpnn

end
-- ==== Proof.lean ====
/-
  A three-layer message-passing network on 50000 nodes and 800000 weighted edges: the kernel and its reference are one
  function of the arguments at the ideal values.

  Each layer takes the node features h ([50000, 128]), a message weight Wm, an update weight Wu and a bias bu:

      msg  = h * Wm^T                                          the linear message, per node
      agg  = for every edge e: add  w[e] * msg[src e]  into row dst e of a zero array
      h'   = tanh ( h * Wu^T + bu + agg )

  and after three layers the result is  h * Wout^T + bout  ([50000, 32]).  The reference does all of it with host
  operations on whole arrays.  The kernel keeps the edge arithmetic -- the gather by source, the product with the
  edge weight and the scatter-add by destination -- as the same host operations on the same operands, and runs the
  three kinds of dense stage as seven calls, each walking the 50000 rows in ten blocks of 5000 with the weight (and
  the bias, as one row) held whole.

  Why the two agree.  A call's block at grid point t is rows 5000 t … 5000 t + 4999, and what the body stores at row r,
  column c of the block is the sum over k of x[r, k] * w[k, c] (plus the bias entry and the aggregate, under tanh, for
  an update; plus the bias entry for the output layer) -- the value at row 5000 t + r of one function of the whole
  arrays.  The ten blocks cover the rows, so each call leaves its output array at that function of the arrays it
  found, and that function is, index by index, the reference's dot_general (with its broadcast bias, additions and
  tanh): both are the same sum over the 128 contracted positions, and the additions are grouped alike, product first,
  then bias, then aggregate.  Narrowing the product's operands to bf16 is the identity at the ideal values, and a
  bias vector reshaped to a row and the same vector broadcast to a row hold the same entries.  Nothing beyond
  re-indexing a finite sum is used; in particular the precondition that the inputs are finite is never opened, and
  the edge indices may be anything: both programs normalise and read them with the same operations.

  The frames of the two kernel programs are the frame certificates of their seven regions; the reference's is its run
  with the result dropped.  The idealization rewrote nothing, so there is nothing to preserve.
-/
import proofs.«158552_j34832184771009_1_alg».proof.Defs
import proofs.«158552_j34832184771009_1_alg».proof.Proof.Gen.Kernel
import proofs.«158552_j34832184771009_1_alg».proof.Proof.Gen.KernelIdeal
import proofs.«158552_j34832184771009_1_alg».proof.Proof.Gen.ReferenceIdeal
import proofs.«158552_j34832184771009_1_alg».proof.Proof.Gen.Pre_finite_inputs
import proofs.«158552_j34832184771009_1_alg».proof.Proof.Gen.ReferenceIdeal.Run
import proofs.«158552_j34832184771009_1_alg».proof.Proof.Gen.ReferenceIdeal.Read
import proofs.«158552_j34832184771009_1_alg».proof.Proof.KernelFrameP
import proofs.«158552_j34832184771009_1_alg».proof.Proof.KernelIdealFrameP
import proofs.«158552_j34832184771009_1_alg».proof.Proof.KernelRun
import proofs.«158552_j34832184771009_1_alg».proof.Proof.KernelValue
import Idealize.ShloMosaic.Adequacy
import Idealize.ShloMosaic.Init

noncomputable section

namespace Cert.Proof

open Idealize.ShloMosaic Idealize.SL.Sem

/-- The kernel as printed runs and leaves its arguments as launched. -/
theorem frame_kernel : Cert.frame_Kernel := fun m ρ _ => Cert.Kernel.GenP.frame m ρ

/-- The idealized kernel runs and leaves its arguments as launched. -/
theorem frame_kernelIdeal : Cert.frame_KernelIdeal := fun m ρ _ => Cert.KernelIdeal.GenP.frame m ρ

/-- The reference runs and leaves its arguments as launched: its run, the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments both idealized programs end with the same result: the reference's last
    stage, as a function of the arguments.  The kernel's result array ends there by the walk through its fourteen
    segments; the reference's by its run, once the agreement of the arguments is rewritten. -/
theorem algebraic : Cert.algebraic_KernelIdeal_ReferenceIdeal := by
  intro m ρ m' ρ' _ hagree
  refine ⟨fun c => Cert.ReferenceIdeal.Read.val_main_v82 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13)),
    ?_, ?_⟩
  · exact (θ_run Cert.KernelIdeal.defs _ _).mono
      (fun r h c => ⟨(h c).1.trans (Cert.Mpnn.at14_v58 m ρ c), (h c).2⟩) (Cert.Mpnn.run_result m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v82_eq]
    obtain ⟨h0, h1, h2, h3, h4, h5, h6, h7, h8, h9, h10, h11, h12, h13⟩ := hagree c
    rw [h0, h1, h2, h3, h4, h5, h6, h7, h8, h9, h10, h11, h12, h13]

/-- Everything the certificate claims, under the witnesses of the programs' stated facts. -/
theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
